-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x2048x1024 .f32) (main_arg1 : FVec F S4x2048x1024 .f32) (main_arg2 : FVec F S4x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S4x2048x16x64 : Shape := ⟨4, ![4, 2048, 16, 64]⟩
abbrev S4x16x2048x64 : Shape := ⟨4, ![4, 16, 2048, 64]⟩
abbrev S64x2048x64 : Shape := ⟨3, ![64, 2048, 64]⟩
abbrev S1x1024x64 : Shape := ⟨3, ![1, 1024, 64]⟩
abbrev S1x2048x64 : Shape := ⟨3, ![1, 2048, 64]⟩
abbrev S1024x64 : Shape := ⟨2, ![1024, 64]⟩
abbrev S2048x64 : Shape := ⟨2, ![2048, 64]⟩
abbrev S1024x2048 : Shape := ⟨2, ![1024, 2048]⟩
abbrev S1024x1 : Shape := ⟨2, ![1024, 1]⟩

abbrev nBuf : Space → Nat
  | .hbm => 40
  | .vmem => 32
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1x1024, .f32⟩
  | .hbm, ⟨19, _⟩ => ⟨S8192x1024, .bf16⟩
  | .hbm, ⟨20, _⟩ => ⟨S1x1024, .f32⟩
  | .hbm, ⟨21, _⟩ => ⟨S8192x1024, .bf16⟩
  | .hbm, ⟨22, _⟩ => ⟨S1x1024, .f32⟩
  | .hbm, ⟨23, _⟩ => ⟨S8192x1024, .bf16⟩
  | .hbm, ⟨24, _⟩ => ⟨S4x2048x16x64, .bf16⟩
  | .hbm, ⟨25, _⟩ => ⟨S4x16x2048x64, .bf16⟩
  | .hbm, ⟨26, _⟩ => ⟨S64x2048x64, .bf16⟩
  | .hbm, ⟨27, _⟩ => ⟨S4x2048x16x64, .bf16⟩
  | .hbm, ⟨28, _⟩ => ⟨S4x16x2048x64, .bf16⟩
  | .hbm, ⟨29, _⟩ => ⟨S64x2048x64, .bf16⟩
  | .hbm, ⟨30, _⟩ => ⟨S4x2048x16x64, .bf16⟩
  | .hbm, ⟨31, _⟩ => ⟨S4x16x2048x64, .bf16⟩
  | .hbm, ⟨32, _⟩ => ⟨S64x2048x64, .bf16⟩
  | .hbm, ⟨33, _⟩ => ⟨S64x2048x64, .bf16⟩
  | .hbm, ⟨34, _⟩ => ⟨S4x16x2048x64, .bf16⟩
  | .hbm, ⟨35, _⟩ => ⟨S4x2048x16x64, .bf16⟩
  | .hbm, ⟨36, _⟩ => ⟨S8192x1024, .bf16⟩
  | .hbm, ⟨37, _⟩ => ⟨S1x1024, .f32⟩
  | .hbm, ⟨38, _⟩ => ⟨S8192x1024, .f32⟩
  | .hbm, ⟨39, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1x1024, .f32⟩
  | .local _ .vmem, ⟨16, _⟩ => ⟨S1024x1024, .bf16⟩
  | .local _ .vmem, ⟨17, _⟩ => ⟨S1024x1024, .bf16⟩
  | .local _ .vmem, ⟨18, _⟩ => ⟨S1x1024x64, .bf16⟩
  | .local _ .vmem, ⟨19, _⟩ => ⟨S1x1024x64, .bf16⟩
  | .local _ .vmem, ⟨20, _⟩ => ⟨S1x2048x64, .bf16⟩
  | .local _ .vmem, ⟨21, _⟩ => ⟨S1x2048x64, .bf16⟩
  | .local _ .vmem, ⟨22, _⟩ => ⟨S1x2048x64, .bf16⟩
  | .local _ .vmem, ⟨23, _⟩ => ⟨S1x2048x64, .bf16⟩
  | .local _ .vmem, ⟨24, _⟩ => ⟨S1x1024x64, .bf16⟩
  | .local _ .vmem, ⟨25, _⟩ => ⟨S1x1024x64, .bf16⟩
  | .local _ .vmem, ⟨26, _⟩ => ⟨S1024x1024, .bf16⟩
  | .local _ .vmem, ⟨27, _⟩ => ⟨S1024x1024, .bf16⟩
  | .local _ .vmem, ⟨28, _⟩ => ⟨S1024x1024, .f32⟩
  | .local _ .vmem, ⟨29, _⟩ => ⟨S1x1024, .f32⟩
  | .local _ .vmem, ⟨30, _⟩ => ⟨S1024x1024, .f32⟩
  | .local _ .vmem, ⟨31, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![64, 2], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x1024x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2048x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x2048x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x1024x64 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1024x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S4x2048x1024_S8192x1024 : S4x2048x1024.ShapeCasts S8192x1024
  transposes_S1024x1024_S1024x1024_1_0 : S1024x1024.Transposes [1, 0] S1024x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S8192x1024_S4x2048x16x64 : S8192x1024.ShapeCasts S4x2048x16x64
  transposes_S4x2048x16x64_S4x16x2048x64_0_2_1_3 : S4x2048x16x64.Transposes [0, 2, 1, 3] S4x16x2048x64
  shapeCasts_S4x16x2048x64_S64x2048x64 : S4x16x2048x64.ShapeCasts S64x2048x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x64 : S1024x1.Broadcasts S1024x64
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  shapeCasts_S64x2048x64_S4x16x2048x64 : S64x2048x64.ShapeCasts S4x16x2048x64
  transposes_S4x16x2048x64_S4x2048x16x64_0_2_1_3 : S4x16x2048x64.Transposes [0, 2, 1, 3] S4x2048x16x64
  shapeCasts_S4x2048x16x64_S8192x1024 : S4x2048x16x64.ShapeCasts S8192x1024
  shapeCasts_S8192x1024_S4x2048x1024 : S8192x1024.ShapeCasts S4x2048x1024
  dot_S1024x1024_S1024x1024_S1024x1024_1_0_0_1_n_n_wf : DotDims.WF S1024x1024 S1024x1024 S1024x1024 [1] [0] [0] [1] [] []
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .bf16 = 32 ∨ (Rect.block (s := S8192x1024) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x1024.size a
  hwx1_3 : ∀ i : grid1.Coords, EltTy.bits .bf16 = 32 ∨ (Rect.block (s := S8192x1024) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .f32 = 32 ∨ (Rect.block (s := S8192x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .bf16 = 32 ∨ (Rect.block (s := S8192x1024) S1024x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1024x64.size a ≤ S64x2048x64.size a
  hwx3_0 : ∀ i : grid3.Coords, EltTy.bits .bf16 = 32 ∨ (Rect.block (s := S64x2048x64) S1x1024x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x64.size a ≤ S64x2048x64.size a
  hwx3_1 : ∀ i : grid3.Coords, EltTy.bits .bf16 = 32 ∨ (Rect.block (s := S64x2048x64) S1x2048x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x64.size a ≤ S64x2048x64.size a
  hwx3_2 : ∀ i : grid3.Coords, EltTy.bits .bf16 = 32 ∨ (Rect.block (s := S64x2048x64) S1x2048x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1024x64.size a ≤ S64x2048x64.size a
  hwx3_3 : ∀ i : grid3.Coords, EltTy.bits .bf16 = 32 ∨ (Rect.block (s := S64x2048x64) S1x1024x64.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S8192x1024.size a
  hwx4_0 : ∀ i : grid4.Coords, EltTy.bits .bf16 = 32 ∨ (Rect.block (s := S8192x1024) S1024x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .f32 = 32 ∨ (Rect.block (s := S1024x1024) S1024x1024.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x1024.size a ≤ S8192x1024.size a
  hwx4_3 : ∀ i : grid4.Coords, EltTy.bits .f32 = 32 ∨ (Rect.block (s := S8192x1024) S1024x1024.size (cc4_transform_3 i) (hinb4_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v15) S1x1024x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S1x2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v21) S1x2048x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v22) S1x1024x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v25) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v6) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v26) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v27) S1024x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 55
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x16x64, .f32⟩
  | .hbm, ⟨16, _⟩ => ⟨S4x16x2048x64, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x16x64, .f32⟩
  | .hbm, ⟨22, _⟩ => ⟨S4x16x2048x64, .f32⟩
  | .hbm, ⟨23, _⟩ => ⟨S4x2048x1024, .f32⟩
  | .hbm, ⟨24, _⟩ => ⟨S1x1x1024, .f32⟩
  | .hbm, ⟨25, _⟩ => ⟨S4x2048x1024, .f32⟩
  | .hbm, ⟨26, _⟩ => ⟨S4x2048x1024, .f32⟩
  | .hbm, ⟨27, _⟩ => ⟨S4x2048x16x64, .f32⟩
  | .hbm, ⟨28, _⟩ => ⟨S4x16x2048x64, .f32⟩
  | .hbm, ⟨29, _⟩ => ⟨S4x16x2048x2048, .f32⟩
  | .hbm, ⟨30, _⟩ => ⟨S_, .f32⟩
  | .hbm, ⟨31, _⟩ => ⟨S_, .f32⟩
  | .hbm, ⟨32, _⟩ => ⟨S4x16x2048x2048, .f32⟩
  | .hbm, ⟨33, _⟩ => ⟨S4x16x2048x2048, .f32⟩
  | .hbm, ⟨34, _⟩ => ⟨S_, .f32⟩
  | .hbm, ⟨35, _⟩ => ⟨S4x16x2048, .f32⟩
  | .hbm, ⟨36, _⟩ => ⟨S_, .f32⟩
  | .hbm, ⟨37, _⟩ => ⟨S4x16x2048, .f32⟩
  | .hbm, ⟨38, _⟩ => ⟨S4x16x2048, .f32⟩
  | .hbm, ⟨39, _⟩ => ⟨S4x16x2048x1, .f32⟩
  | .hbm, ⟨40, _⟩ => ⟨S4x16x2048x2048, .f32⟩
  | .hbm, ⟨41, _⟩ => ⟨S4x16x2048x2048, .f32⟩
  | .hbm, ⟨42, _⟩ => ⟨S4x16x2048x2048, .f32⟩
  | .hbm, ⟨43, _⟩ => ⟨S_, .f32⟩
  | .hbm, ⟨44, _⟩ => ⟨S4x16x2048, .f32⟩
  | .hbm, ⟨45, _⟩ => ⟨S4x16x2048x1, .f32⟩
  | .hbm, ⟨46, _⟩ => ⟨S4x16x2048x2048, .f32⟩
  | .hbm, ⟨47, _⟩ => ⟨S4x16x2048x2048, .f32⟩
  | .hbm, ⟨48, _⟩ => ⟨S4x16x2048x64, .f32⟩
  | .hbm, ⟨49, _⟩ => ⟨S4x2048x16x64, .f32⟩
  | .hbm, ⟨50, _⟩ => ⟨S4x2048x1024, .f32⟩
  | .hbm, ⟨51, _⟩ => ⟨S4x2048x1024, .f32⟩
  | .hbm, ⟨52, _⟩ => ⟨S1x1x1024, .f32⟩
  | .hbm, ⟨53, _⟩ => ⟨S4x2048x1024, .f32⟩
  | .hbm, ⟨54, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Attention.lean ====
/-
  Multi-head attention over the extended reals, written as plain functions of coordinates.

  Four batches, 2048 positions, model width 1024 = 16 heads x 64.  A projection is
  `y[n,s,e] = (sum_d x[n,s,d] * w[e,d]) + b[e]`; head `h` of a projected array is its columns
  `h*64 .. h*64+63`.  Within one (batch, head) the scores of a query row `s` against every key row `t`
  are the dot products `sum_j q[s,j] * k[t,j]`, scaled; the row is shifted by its maximum,
  exponentiated, and used as weights of the value rows.

  Two spellings of the weighted average are stated here.  One scales the dot products by the
  constant 1/8, sums the weighted value rows first and divides the sum by the total weight.  The
  other divides the dot products by sqrt 64, divides every weight by the total weight first and sums
  after.  On the extended reals the scalings agree everywhere (sqrt 64 = 8 and a quotient by 8 is the
  product with 1/8); moving the division across the sum is the distributive law, which needs the total
  weight to be a positive real: that holds when the queries and keys are real numbers.

  The float constants are kept as the words the two programs print; only their meaning as extended
  reals is used, and only where a law needs it.
-/
import Idealize.ShloMosaic.PureOps.Ideal
import Idealize.ShloMosaic.PureOps.Ideal.Laws
import Idealize.ShloMosaic.Lib.ValueIdx

noncomputable section

namespace Cert.Attention

open Idealize.ShloMosaic

/-- The word of minus infinity: the value both row maxima start from. -/
abbrev negInf : EReal := Ideal.ofBits .f32 0xFF800000#32
/-- The word of 1/8: the scale the first spelling multiplies the dot products by. -/
abbrev eighth : EReal := Ideal.ofBits .f32 0x3E000000#32
/-- The word of 64: the second spelling divides the dot products by its square root. -/
abbrev sixtyFour : EReal := Ideal.ofBits .f32 0x42800000#32
/-- The word of zero: the value the second spelling's total weight starts from. -/
abbrev zeroWord : EReal := Ideal.ofBits .f32 0x00000000#32

/-- Column `h*64 + j` of a 1024-wide row: coordinate `j` of head `h`. -/
def col (h : Fin 16) (j : Fin 64) : Fin 1024 := ⟨h.val * 64 + j.val, by omega⟩

/-- The head a column belongs to. -/
def headOf (d : Fin 1024) : Fin 16 := ⟨d.val / 64, by omega⟩
/-- A column's coordinate inside its head. -/
def laneOf (d : Fin 1024) : Fin 64 := ⟨d.val % 64, Nat.mod_lt _ (by decide)⟩

/-- A linear layer: `y[n,s,e] = (sum_d x[n,s,d] * w[e,d]) + b[e]`. -/
def proj (x : Fin 4 → Fin 2048 → Fin 1024 → EReal) (w : Fin 1024 → Fin 1024 → EReal) (b : Fin 1024 → EReal)
    (n : Fin 4) (s : Fin 2048) (e : Fin 1024) : EReal :=
  (∑ d : Fin 1024, x n s d * w e d) + b e

/-- Head `h` of batch `n` of a projected array: its 64 columns as a 2048 x 64 matrix. -/
def head (y : Fin 4 → Fin 2048 → Fin 1024 → EReal) (n : Fin 4) (h : Fin 16) (s : Fin 2048) (j : Fin 64) : EReal :=
  y n s (col h j)

/-- The heads put back side by side: column `d` of row `(n, s)` is coordinate `d % 64` of head `d / 64`. -/
def merge (a : Fin 4 → Fin 16 → Fin 2048 → Fin 64 → EReal) (n : Fin 4) (s : Fin 2048) (d : Fin 1024) : EReal :=
  a n (headOf d) s (laneOf d)

/-- The dot product of query row `s` with key row `t`. -/
def dots (q k : Fin 2048 → Fin 64 → EReal) (s t : Fin 2048) : EReal := ∑ j : Fin 64, q s j * k t j

/-- The maximum of a row of 2048 scores, folded from minus infinity. -/
def rowMax (r : Fin 2048 → EReal) : EReal := (Finset.univ : Finset (Fin 2048)).fold max negInf r

/-- The scores of the first spelling: the dot products times 1/8. -/
def scoreMul (q k : Fin 2048 → Fin 64 → EReal) (s t : Fin 2048) : EReal := dots q k s t * eighth

/-- The scores of the second spelling: the dot products divided by sqrt 64. -/
def scoreDiv (q k : Fin 2048 → Fin 64 → EReal) (s t : Fin 2048) : EReal := Ideal.div (dots q k s t) (Ideal.sqrt sixtyFour)

/-- The weights of a row of scores: each score shifted by `mx` and exponentiated. -/
def weight (r : Fin 2048 → EReal) (mx : EReal) (t : Fin 2048) : EReal := Ideal.exp (r t - mx)

/-- First spelling: the weighted value rows summed, then divided by the total weight. -/
def attnSumThenDivide (q k v : Fin 2048 → Fin 64 → EReal) (s : Fin 2048) (j : Fin 64) : EReal :=
  Ideal.div (∑ t : Fin 2048, weight (scoreMul q k s) (rowMax (scoreMul q k s)) t * v t j)
    (∑ t : Fin 2048, weight (scoreMul q k s) (rowMax (scoreMul q k s)) t)

/-- Second spelling: every weight divided by the total weight (counted from the zero word), then the value rows
    summed; the row maximum is taken once more against minus infinity. -/
def attnDivideThenSum (q k v : Fin 2048 → Fin 64 → EReal) (s : Fin 2048) (j : Fin 64) : EReal :=
  ∑ t : Fin 2048,
    Ideal.div (weight (scoreDiv q k s) (max negInf (rowMax (scoreDiv q k s))) t)
      (zeroWord + ∑ t' : Fin 2048, weight (scoreDiv q k s) (max negInf (rowMax (scoreDiv q k s))) t') * v t j

/-- Multi-head attention with the first spelling inside each head. -/
def mhaSumThenDivide (xq xk xv : Fin 4 → Fin 2048 → Fin 1024 → EReal)
    (wq : Fin 1024 → Fin 1024 → EReal) (bq : Fin 1024 → EReal) (wk : Fin 1024 → Fin 1024 → EReal) (bk : Fin 1024 → EReal)
    (wv : Fin 1024 → Fin 1024 → EReal) (bv : Fin 1024 → EReal) (wo : Fin 1024 → Fin 1024 → EReal) (bo : Fin 1024 → EReal) :
    Fin 4 → Fin 2048 → Fin 1024 → EReal :=
  proj (merge fun n h => attnSumThenDivide (head (proj xq wq bq) n h) (head (proj xk wk bk) n h) (head (proj xv wv bv) n h)) wo bo

/-- Multi-head attention with the second spelling inside each head. -/
def mhaDivideThenSum (xq xk xv : Fin 4 → Fin 2048 → Fin 1024 → EReal)
    (wq : Fin 1024 → Fin 1024 → EReal) (bq : Fin 1024 → EReal) (wk : Fin 1024 → Fin 1024 → EReal) (bk : Fin 1024 → EReal)
    (wv : Fin 1024 → Fin 1024 → EReal) (bv : Fin 1024 → EReal) (wo : Fin 1024 → Fin 1024 → EReal) (bo : Fin 1024 → EReal) :
    Fin 4 → Fin 2048 → Fin 1024 → EReal :=
  proj (merge fun n h => attnDivideThenSum (head (proj xq wq bq) n h) (head (proj xk wk bk) n h) (head (proj xv wv bv) n h)) wo bo

end Cert.Attention

end
-- ==== Proof.AttentionLaw.lean ====
/-
  The two spellings of multi-head attention in the specification agree when the queries and keys are real.

  Three facts carry it.  The scalings agree on every extended real: the word of 64 denotes 64, its square root
  is 8, and a quotient by the nonzero real 8 is the product with 1/8, the value the other word denotes.  The
  maxima and the totals agree: minus infinity is neutral for the maximum and zero for the sum.  And the
  division moves across the sum: a row of real scores has a real maximum, so every weight is the exponential of
  a real, a positive real, and so is the total weight L; dividing by a positive real is multiplying by the
  nonnegative real 1/L, and a finite sum of extended reals times a nonnegative real is the sum of the products
  (the distributive law of the extended reals holds for a nonnegative finite factor, whatever the summands).
  The value rows are arbitrary extended reals throughout.
-/
import proofs.«161808_j84293028151875_2_alg».proof.Proof.Attention

noncomputable section

namespace Cert.Attention

open Idealize.ShloMosaic

namespace Law

/-! ### The four constants as extended reals -/

/-- The pattern `0xFF800000` (sign 1, exponent all ones, fraction 0) denotes minus infinity. -/
theorem negInf_eq : negInf = ⊥ := by
  simp [Ideal.ofBits, Ideal.ieee]

/-- The all-zero pattern denotes zero. -/
theorem zeroWord_eq : zeroWord = 0 := Ideal.ofBits_zero_f32

/-- The pattern `0x42800000` (exponent 133, fraction 0) denotes `2^23 * 2^(133 - 127 - 23) = 64`. -/
theorem sixtyFour_eq : sixtyFour = ((64 : ℝ) : EReal) := by
  simp [Ideal.ofBits, Ideal.ieee, -EReal.coe_mul]; norm_num

/-- The pattern `0x3E000000` (exponent 124, fraction 0) denotes `2^23 * 2^(124 - 127 - 23) = 1/8`. -/
theorem eighth_eq : eighth = ((1 / 8 : ℝ) : EReal) := by
  simp [Ideal.ofBits, Ideal.ieee, -EReal.coe_mul]; norm_num

/-- The square root of 64 is 8. -/
theorem sqrt_sixtyFour : Ideal.sqrt sixtyFour = ((8 : ℝ) : EReal) := by
  have h8 : Real.sqrt 64 = 8 := by
    rw [show (64 : ℝ) = 8 * 8 by norm_num]
    exact Real.sqrt_mul_self (by norm_num)
  rw [sixtyFour_eq, Ideal.sqrt_coe, if_neg (by norm_num), h8]

/-- The two scalings agree on every extended real: a quotient by `sqrt 64 = 8` is the product with `1/8`. -/
theorem scoreDiv_eq_scoreMul (q k : Fin 2048 → Fin 64 → EReal) : scoreDiv q k = scoreMul q k := by
  funext s t
  unfold scoreDiv scoreMul
  rw [sqrt_sixtyFour, Ideal.div_coe (by norm_num : (8 : ℝ) ≠ 0), eighth_eq]

/-! ### Extended reals that are real numbers -/

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The coercion of a finite sum of reals is the sum of the coercions. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of real numbers is a real number. -/
theorem isReal_sum {ι : Type*} (s : Finset ι) (f : ι → EReal) (hf : ∀ i, IsReal (f i)) :
    IsReal (∑ i ∈ s, f i) := by
  choose g hg using hf
  refine ⟨∑ i ∈ s, g i, ?_⟩
  rw [coe_sum]
  exact Finset.sum_congr rfl fun i _ => hg i

/-- A linear layer of real inputs, real weights and real biases has real outputs. -/
theorem proj_real (x : Fin 4 → Fin 2048 → Fin 1024 → EReal) (w : Fin 1024 → Fin 1024 → EReal) (b : Fin 1024 → EReal)
    (hx : ∀ n s d, IsReal (x n s d)) (hw : ∀ e d, IsReal (w e d)) (hb : ∀ e, IsReal (b e))
    (n : Fin 4) (s : Fin 2048) (e : Fin 1024) : IsReal (proj x w b n s e) :=
  (isReal_sum _ _ fun d => (hx n s d).mul (hw e d)).add (hb e)

/-- The dot product of a real query row with a real key row is real. -/
theorem dots_real (q k : Fin 2048 → Fin 64 → EReal) (hq : ∀ s j, IsReal (q s j)) (hk : ∀ s j, IsReal (k s j))
    (s t : Fin 2048) : IsReal (dots q k s t) :=
  isReal_sum _ _ fun j => (hq s j).mul (hk t j)

/-! ### The row maximum and the weights of a real row -/

/-- The maximum of finitely many reals, folded from minus infinity, is minus infinity or a real. -/
theorem fold_max_bot_real {ι : Type*} (s : Finset ι) (f : ι → ℝ) :
    s.fold max (⊥ : EReal) (fun i => (f i : EReal)) = ⊥ ∨
      ∃ m : ℝ, s.fold max (⊥ : EReal) (fun i => (f i : EReal)) = (m : EReal) := by
  classical
  induction s using Finset.induction_on with
  | empty => exact Or.inl Finset.fold_empty
  | insert a s ha ih =>
    refine Or.inr ?_
    rw [Finset.fold_insert ha]
    rcases ih with h | ⟨m, h⟩
    · exact ⟨f a, by rw [h]; exact max_eq_left bot_le⟩
    · rw [h]
      rcases max_choice ((f a : ℝ) : EReal) (m : EReal) with h' | h'
      · exact ⟨f a, h'⟩
      · exact ⟨m, h'⟩

/-- The maximum of a row of 2048 real scores is real: it is at least the first score. -/
theorem rowMax_real (r : Fin 2048 → EReal) (hr : ∀ t, IsReal (r t)) : IsReal (rowMax r) := by
  choose ρ hρ using hr
  have hfun : r = fun t => (ρ t : EReal) := funext hρ
  unfold rowMax
  rw [negInf_eq, hfun]
  rcases fold_max_bot_real Finset.univ ρ with h | h
  · exfalso
    have hle : ((ρ 0 : ℝ) : EReal) ≤ (Finset.univ : Finset (Fin 2048)).fold max (⊥ : EReal) (fun t => (ρ t : EReal)) :=
      (Finset.le_fold_max _).2 (Or.inr ⟨0, Finset.mem_univ _, le_rfl⟩)
    rw [h] at hle
    exact EReal.coe_ne_bot _ (le_bot_iff.1 hle)
  · exact h

/-- A weight of a real row shifted by a real is a positive real. -/
theorem weight_pos (r : Fin 2048 → EReal) (mx : EReal) (hr : ∀ t, IsReal (r t)) (hm : IsReal mx) (t : Fin 2048) :
    ∃ w : ℝ, 0 < w ∧ weight r mx t = (w : EReal) := by
  obtain ⟨a, ha⟩ := hr t
  obtain ⟨m, rfl⟩ := hm
  refine ⟨Real.exp (a - m), Real.exp_pos _, ?_⟩
  unfold weight
  rw [ha, ← EReal.coe_sub, Ideal.exp_coe]

/-- A sum of positive reals over a nonempty finite type is a positive real. -/
theorem sum_pos_real {ι : Type*} [Fintype ι] [Nonempty ι] (f : ι → EReal)
    (hf : ∀ i, ∃ w : ℝ, 0 < w ∧ f i = (w : EReal)) : ∃ L : ℝ, 0 < L ∧ ∑ i, f i = (L : EReal) := by
  choose g hg0 hg using hf
  refine ⟨∑ i, g i, Finset.sum_pos (fun i _ => hg0 i) Finset.univ_nonempty, ?_⟩
  rw [coe_sum]
  exact Finset.sum_congr rfl fun i _ => hg i

/-! ### Moving the division across the sum -/

/-- A finite sum of extended reals times a nonnegative real is the sum of the products. -/
theorem sum_mul_real {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

/-- The law: with a positive real total weight `L`, dividing the weighted sum by `L` is summing with every
    weight divided by `L`; the summands `v` are arbitrary extended reals. -/
theorem div_sum_law {ι : Type*} (s : Finset ι) (w v : ι → EReal) (L : ℝ) (hL : 0 < L) :
    Ideal.div (∑ i ∈ s, w i * v i) (L : EReal) = ∑ i ∈ s, Ideal.div (w i) (L : EReal) * v i := by
  have hc : (0 : ℝ) ≤ 1 / L := by positivity
  rw [Ideal.div_coe hL.ne', sum_mul_real _ _ _ hc]
  refine Finset.sum_congr rfl fun i _ => ?_
  rw [Ideal.div_coe hL.ne', mul_right_comm]

/-- Within one head the two spellings agree when the queries and keys are real. -/
theorem attn_eq (q k v : Fin 2048 → Fin 64 → EReal) (hq : ∀ s j, IsReal (q s j)) (hk : ∀ s j, IsReal (k s j)) :
    attnSumThenDivide q k v = attnDivideThenSum q k v := by
  funext s j
  have hsc : ∀ t, IsReal (scoreMul q k s t) := fun t => (dots_real q k hq hk s t).mul ⟨1 / 8, eighth_eq⟩
  have hM : IsReal (rowMax (scoreMul q k s)) := rowMax_real _ hsc
  obtain ⟨L, hL, hsum⟩ := sum_pos_real (fun t => weight (scoreMul q k s) (rowMax (scoreMul q k s)) t)
    (fun t => weight_pos _ _ hsc hM t)
  have hsum' : ∑ t : Fin 2048, weight (scoreMul q k s) (rowMax (scoreMul q k s)) t = (L : EReal) := hsum
  unfold attnSumThenDivide attnDivideThenSum
  rw [scoreDiv_eq_scoreMul, negInf_eq, max_eq_right bot_le, zeroWord_eq, zero_add, hsum']
  exact div_sum_law _ _ _ L hL

end Law

/-- The two spellings of multi-head attention agree when the query and key inputs, weights and biases are real. -/
theorem mha_eq (xq xk xv : Fin 4 → Fin 2048 → Fin 1024 → EReal)
    (wq : Fin 1024 → Fin 1024 → EReal) (bq : Fin 1024 → EReal) (wk : Fin 1024 → Fin 1024 → EReal) (bk : Fin 1024 → EReal)
    (wv : Fin 1024 → Fin 1024 → EReal) (bv : Fin 1024 → EReal) (wo : Fin 1024 → Fin 1024 → EReal) (bo : Fin 1024 → EReal)
    (hxq : ∀ n s d, ∃ r : ℝ, xq n s d = (r : EReal)) (hwq : ∀ e d, ∃ r : ℝ, wq e d = (r : EReal))
    (hbq : ∀ e, ∃ r : ℝ, bq e = (r : EReal))
    (hxk : ∀ n s d, ∃ r : ℝ, xk n s d = (r : EReal)) (hwk : ∀ e d, ∃ r : ℝ, wk e d = (r : EReal))
    (hbk : ∀ e, ∃ r : ℝ, bk e = (r : EReal)) :
    mhaSumThenDivide xq xk xv wq bq wk bk wv bv wo bo = mhaDivideThenSum xq xk xv wq bq wk bk wv bv wo bo := by
  have h : (fun n h => attnSumThenDivide (head (proj xq wq bq) n h) (head (proj xk wk bk) n h) (head (proj xv wv bv) n h))
      = (fun n h => attnDivideThenSum (head (proj xq wq bq) n h) (head (proj xk wk bk) n h) (head (proj xv wv bv) n h)) := by
    funext n h
    exact Law.attn_eq _ _ _ (fun s j => Law.proj_real xq wq bq hxq hwq hbq n s (col h j))
      (fun s j => Law.proj_real xk wk bk hxk hwk hbk n s (col h j))
  unfold mhaSumThenDivide mhaDivideThenSum
  rw [h]

end Cert.Attention

end
-- ==== Proof.FiniteInputs.lean ====
/-
  From the precondition to real numbers.

  The precondition is printed as one chain: for each of the eleven argument arrays, the absolute value of every
  entry is compared with plus infinity, the comparisons are reduced by `and` over all axes from the constant
  true, and the eleven results are joined by `and`; the claim assumes the result is true.  Read backwards: a
  conjunction of bits is 1 only if both are; a reduction by `and` that came out 1 met only 1s; and
  `max x (-x) < +inf` fails at both infinities, so an entry that passes is a real number.
-/
import proofs.«161808_j84293028151875_2_alg».proof.Defs
import Idealize.ShloMosaic.Lib.ReduceAll
import Idealize.ShloMosaic.Lib.ValueIdx
import Idealize.ShloMosaic.Lib.IdealHost

noncomputable section

namespace Cert.FiniteInputs

open Idealize.ShloMosaic Idealize.ShloMosaic.ValueIdx Cert.Pre_finite_inputs

/-- The scalar shape has one index. -/
instance subsingleton_scalar_idx : Subsingleton S_.Idx := ⟨fun a b => funext fun d => d.elim0⟩

/-- An extended real whose absolute value is below plus infinity is a real number. -/
theorem real_of_abs_lt_top (a : EReal)
    (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  induction a using EReal.rec with
  | bot => simp [Ideal.cmp] at h
  | coe r => exact ⟨r, rfl⟩
  | top => simp [Ideal.cmp] at h

/-- The printed `jnp.all (|x| < +inf)` of an array, read at the scalar's one index. -/
def allFinite {s : Shape} {axes : List (Fin s.rank)} (hb : S_.BroadcastsInDim s (![] : Fin 0 → Fin s.rank))
    (hred : s.ReducesTo axes S_) (hS : 0 < S_.numel) (x : FVec Ideal s .f32) : BitVec 1 :=
  Host.reduce IntOp.andi
    (cmpf .olt (Host.absf x) (broadcastInDim s ![] hb (constant (F := Ideal) S_ .f32 0x7F800000#32)))
    (constantI S_ 1 1#1) hred hS ix0

/-- If `jnp.all (|x| < +inf)` is true, every entry of `x` is a real number. -/
theorem real_of_allFinite {s : Shape} {axes : List (Fin s.rank)} (hb : S_.BroadcastsInDim s (![] : Fin 0 → Fin s.rank))
    (hred : s.ReducesTo axes S_) (hS : 0 < S_.numel) (x : FVec Ideal s .f32)
    (e : allFinite hb hred hS x = 1#1) (i : s.Idx) : ∃ r : ℝ, x i = (r : EReal) := by
  have hi := Host.reduce_andi_all _ _ hred hS ix0 e i
  rw [cmpf_apply, broadcastInDim_scalar_apply, constant_apply] at hi
  exact real_of_abs_lt_top (x i) hi

variable [hPre_finite_inputs : Cert.Pre_finite_inputs.Facts]

/-- The printed precondition, read at its one index, is the conjunction of the eleven `jnp.all`s. -/
theorem fn_eq_one_iff (a0 a1 a2 : FVec Ideal S4x2048x1024 .f32) (a3 : FVec Ideal S1024x1024 .f32) (a4 : FVec Ideal S1024 .f32)
    (a5 : FVec Ideal S1024x1024 .f32) (a6 : FVec Ideal S1024 .f32) (a7 : FVec Ideal S1024x1024 .f32) (a8 : FVec Ideal S1024 .f32)
    (a9 : FVec Ideal S1024x1024 .f32) (a10 : FVec Ideal S1024 .f32) :
    fn (F := Ideal) a0 a1 a2 a3 a4 a5 a6 a7 a8 a9 a10 ix0 = 1#1 ↔
      ((((((((((allFinite Facts.bcast_S_S4x2048x1024 Facts.reducesTo_S4x2048x1024_S_d0_1_2 Facts.h_S_ a0 = 1#1
        ∧ allFinite Facts.bcast_S_S4x2048x1024 Facts.reducesTo_S4x2048x1024_S_d0_1_2 Facts.h_S_ a1 = 1#1)
        ∧ allFinite Facts.bcast_S_S4x2048x1024 Facts.reducesTo_S4x2048x1024_S_d0_1_2 Facts.h_S_ a2 = 1#1)
        ∧ allFinite Facts.bcast_S_S1024x1024 Facts.reducesTo_S1024x1024_S_d0_1 Facts.h_S_ a3 = 1#1)
        ∧ allFinite Facts.bcast_S_S1024 Facts.reducesTo_S1024_S_d0 Facts.h_S_ a4 = 1#1)
        ∧ allFinite Facts.bcast_S_S1024x1024 Facts.reducesTo_S1024x1024_S_d0_1 Facts.h_S_ a5 = 1#1)
        ∧ allFinite Facts.bcast_S_S1024 Facts.reducesTo_S1024_S_d0 Facts.h_S_ a6 = 1#1)
        ∧ allFinite Facts.bcast_S_S1024x1024 Facts.reducesTo_S1024x1024_S_d0_1 Facts.h_S_ a7 = 1#1)
        ∧ allFinite Facts.bcast_S_S1024 Facts.reducesTo_S1024_S_d0 Facts.h_S_ a8 = 1#1)
        ∧ allFinite Facts.bcast_S_S1024x1024 Facts.reducesTo_S1024x1024_S_d0_1 Facts.h_S_ a9 = 1#1)
        ∧ allFinite Facts.bcast_S_S1024 Facts.reducesTo_S1024_S_d0 Facts.h_S_ a10 = 1#1) := by
  simp only [← IntOp.andi_eq_one]
  rfl

/-- The same at the shape of the three inputs. -/
theorem real_S4x2048x1024 (x : FVec Ideal S4x2048x1024 .f32)
    (e : allFinite Facts.bcast_S_S4x2048x1024 Facts.reducesTo_S4x2048x1024_S_d0_1_2 Facts.h_S_ x = 1#1) (i : (⟨3, ![4, 2048, 1024]⟩ : Shape).Idx) :
    ∃ r : ℝ, x i = (r : EReal) :=
  real_of_allFinite Facts.bcast_S_S4x2048x1024 Facts.reducesTo_S4x2048x1024_S_d0_1_2 Facts.h_S_ x e i

/-- The same at the shape of the four weight matrices. -/
theorem real_S1024x1024 (x : FVec Ideal S1024x1024 .f32)
    (e : allFinite Facts.bcast_S_S1024x1024 Facts.reducesTo_S1024x1024_S_d0_1 Facts.h_S_ x = 1#1) (i : (⟨2, ![1024, 1024]⟩ : Shape).Idx) :
    ∃ r : ℝ, x i = (r : EReal) :=
  real_of_allFinite Facts.bcast_S_S1024x1024 Facts.reducesTo_S1024x1024_S_d0_1 Facts.h_S_ x e i

/-- The same at the shape of the four bias rows. -/
theorem real_S1024 (x : FVec Ideal S1024 .f32)
    (e : allFinite Facts.bcast_S_S1024 Facts.reducesTo_S1024_S_d0 Facts.h_S_ x = 1#1) (i : (⟨1, ![1024]⟩ : Shape).Idx) :
    ∃ r : ℝ, x i = (r : EReal) :=
  real_of_allFinite Facts.bcast_S_S1024 Facts.reducesTo_S1024_S_d0 Facts.h_S_ x e i

/-- The precondition of the idealized kernel says each of the eleven argument arrays passes `jnp.all (|x| < +inf)`. -/
theorem conj_of_pre (m : (ℓ : Loc Cert.KernelIdeal.nD Cert.KernelIdeal.τ Cert.KernelIdeal.sig) → Buf (Elt Ideal) ℓ)
    (h : Cert.Pre_KernelIdeal m) (c : Dev Cert.KernelIdeal.nD) :
    ((((((((((allFinite Facts.bcast_S_S4x2048x1024 Facts.reducesTo_S4x2048x1024_S_d0_1_2 Facts.h_S_ (m ((c.tc : Thread Cert.KernelIdeal.nD Cert.KernelIdeal.τ).loc Cert.KernelIdeal.main_arg0)) = 1#1
        ∧ allFinite Facts.bcast_S_S4x2048x1024 Facts.reducesTo_S4x2048x1024_S_d0_1_2 Facts.h_S_ (m ((c.tc : Thread Cert.KernelIdeal.nD Cert.KernelIdeal.τ).loc Cert.KernelIdeal.main_arg1)) = 1#1)
        ∧ allFinite Facts.bcast_S_S4x2048x1024 Facts.reducesTo_S4x2048x1024_S_d0_1_2 Facts.h_S_ (m ((c.tc : Thread Cert.KernelIdeal.nD Cert.KernelIdeal.τ).loc Cert.KernelIdeal.main_arg2)) = 1#1)
        ∧ allFinite Facts.bcast_S_S1024x1024 Facts.reducesTo_S1024x1024_S_d0_1 Facts.h_S_ (m ((c.tc : Thread Cert.KernelIdeal.nD Cert.KernelIdeal.τ).loc Cert.KernelIdeal.main_arg3)) = 1#1)
        ∧ allFinite Facts.bcast_S_S1024 Facts.reducesTo_S1024_S_d0 Facts.h_S_ (m ((c.tc : Thread Cert.KernelIdeal.nD Cert.KernelIdeal.τ).loc Cert.KernelIdeal.main_arg4)) = 1#1)
        ∧ allFinite Facts.bcast_S_S1024x1024 Facts.reducesTo_S1024x1024_S_d0_1 Facts.h_S_ (m ((c.tc : Thread Cert.KernelIdeal.nD Cert.KernelIdeal.τ).loc Cert.KernelIdeal.main_arg5)) = 1#1)
        ∧ allFinite Facts.bcast_S_S1024 Facts.reducesTo_S1024_S_d0 Facts.h_S_ (m ((c.tc : Thread Cert.KernelIdeal.nD Cert.KernelIdeal.τ).loc Cert.KernelIdeal.main_arg6)) = 1#1)
        ∧ allFinite Facts.bcast_S_S1024x1024 Facts.reducesTo_S1024x1024_S_d0_1 Facts.h_S_ (m ((c.tc : Thread Cert.KernelIdeal.nD Cert.KernelIdeal.τ).loc Cert.KernelIdeal.main_arg7)) = 1#1)
        ∧ allFinite Facts.bcast_S_S1024 Facts.reducesTo_S1024_S_d0 Facts.h_S_ (m ((c.tc : Thread Cert.KernelIdeal.nD Cert.KernelIdeal.τ).loc Cert.KernelIdeal.main_arg8)) = 1#1)
        ∧ allFinite Facts.bcast_S_S1024x1024 Facts.reducesTo_S1024x1024_S_d0_1 Facts.h_S_ (m ((c.tc : Thread Cert.KernelIdeal.nD Cert.KernelIdeal.τ).loc Cert.KernelIdeal.main_arg9)) = 1#1)
        ∧ allFinite Facts.bcast_S_S1024 Facts.reducesTo_S1024_S_d0 Facts.h_S_ (m ((c.tc : Thread Cert.KernelIdeal.nD Cert.KernelIdeal.τ).loc Cert.KernelIdeal.main_arg10)) = 1#1) :=
  (fn_eq_one_iff _ _ _ _ _ _ _ _ _ _ _).1 (congrFun (h c) ix0)

/-- Under the precondition every entry of the query input is a real number. -/
theorem real_arg0 (m : (ℓ : Loc Cert.KernelIdeal.nD Cert.KernelIdeal.τ Cert.KernelIdeal.sig) → Buf (Elt Ideal) ℓ)
    (h : Cert.Pre_KernelIdeal m) (c : Dev Cert.KernelIdeal.nD) (i : (⟨3, ![4, 2048, 1024]⟩ : Shape).Idx) :
    ∃ r : ℝ, m ((c.tc : Thread Cert.KernelIdeal.nD Cert.KernelIdeal.τ).loc Cert.KernelIdeal.main_arg0) i = (r : EReal) :=
  real_S4x2048x1024 _ ((conj_of_pre m h c).1.1.1.1.1.1.1.1.1.1) i

/-- Under the precondition every entry of the key input is a real number. -/
theorem real_arg1 (m : (ℓ : Loc Cert.KernelIdeal.nD Cert.KernelIdeal.τ Cert.KernelIdeal.sig) → Buf (Elt Ideal) ℓ)
    (h : Cert.Pre_KernelIdeal m) (c : Dev Cert.KernelIdeal.nD) (i : (⟨3, ![4, 2048, 1024]⟩ : Shape).Idx) :
    ∃ r : ℝ, m ((c.tc : Thread Cert.KernelIdeal.nD Cert.KernelIdeal.τ).loc Cert.KernelIdeal.main_arg1) i = (r : EReal) :=
  real_S4x2048x1024 _ ((conj_of_pre m h c).1.1.1.1.1.1.1.1.1.2) i

/-- Under the precondition every entry of the value input is a real number. -/
theorem real_arg2 (m : (ℓ : Loc Cert.KernelIdeal.nD Cert.KernelIdeal.τ Cert.KernelIdeal.sig) → Buf (Elt Ideal) ℓ)
    (h : Cert.Pre_KernelIdeal m) (c : Dev Cert.KernelIdeal.nD) (i : (⟨3, ![4, 2048, 1024]⟩ : Shape).Idx) :
    ∃ r : ℝ, m ((c.tc : Thread Cert.KernelIdeal.nD Cert.KernelIdeal.τ).loc Cert.KernelIdeal.main_arg2) i = (r : EReal) :=
  real_S4x2048x1024 _ ((conj_of_pre m h c).1.1.1.1.1.1.1.1.2) i

/-- Under the precondition every entry of the query weight is a real number. -/
theorem real_arg3 (m : (ℓ : Loc Cert.KernelIdeal.nD Cert.KernelIdeal.τ Cert.KernelIdeal.sig) → Buf (Elt Ideal) ℓ)
    (h : Cert.Pre_KernelIdeal m) (c : Dev Cert.KernelIdeal.nD) (i : (⟨2, ![1024, 1024]⟩ : Shape).Idx) :
    ∃ r : ℝ, m ((c.tc : Thread Cert.KernelIdeal.nD Cert.KernelIdeal.τ).loc Cert.KernelIdeal.main_arg3) i = (r : EReal) :=
  real_S1024x1024 _ ((conj_of_pre m h c).1.1.1.1.1.1.1.2) i

/-- Under the precondition every entry of the query bias is a real number. -/
theorem real_arg4 (m : (ℓ : Loc Cert.KernelIdeal.nD Cert.KernelIdeal.τ Cert.KernelIdeal.sig) → Buf (Elt Ideal) ℓ)
    (h : Cert.Pre_KernelIdeal m) (c : Dev Cert.KernelIdeal.nD) (i : (⟨1, ![1024]⟩ : Shape).Idx) :
    ∃ r : ℝ, m ((c.tc : Thread Cert.KernelIdeal.nD Cert.KernelIdeal.τ).loc Cert.KernelIdeal.main_arg4) i = (r : EReal) :=
  real_S1024 _ ((conj_of_pre m h c).1.1.1.1.1.1.2) i

/-- Under the precondition every entry of the key weight is a real number. -/
theorem real_arg5 (m : (ℓ : Loc Cert.KernelIdeal.nD Cert.KernelIdeal.τ Cert.KernelIdeal.sig) → Buf (Elt Ideal) ℓ)
    (h : Cert.Pre_KernelIdeal m) (c : Dev Cert.KernelIdeal.nD) (i : (⟨2, ![1024, 1024]⟩ : Shape).Idx) :
    ∃ r : ℝ, m ((c.tc : Thread Cert.KernelIdeal.nD Cert.KernelIdeal.τ).loc Cert.KernelIdeal.main_arg5) i = (r : EReal) :=
  real_S1024x1024 _ ((conj_of_pre m h c).1.1.1.1.1.2) i

/-- Under the precondition every entry of the key bias is a real number. -/
theorem real_arg6 (m : (ℓ : Loc Cert.KernelIdeal.nD Cert.KernelIdeal.τ Cert.KernelIdeal.sig) → Buf (Elt Ideal) ℓ)
    (h : Cert.Pre_KernelIdeal m) (c : Dev Cert.KernelIdeal.nD) (i : (⟨1, ![1024]⟩ : Shape).Idx) :
    ∃ r : ℝ, m ((c.tc : Thread Cert.KernelIdeal.nD Cert.KernelIdeal.τ).loc Cert.KernelIdeal.main_arg6) i = (r : EReal) :=
  real_S1024 _ ((conj_of_pre m h c).1.1.1.1.2) i

/-- Under the precondition every entry of the value weight is a real number. -/
theorem real_arg7 (m : (ℓ : Loc Cert.KernelIdeal.nD Cert.KernelIdeal.τ Cert.KernelIdeal.sig) → Buf (Elt Ideal) ℓ)
    (h : Cert.Pre_KernelIdeal m) (c : Dev Cert.KernelIdeal.nD) (i : (⟨2, ![1024, 1024]⟩ : Shape).Idx) :
    ∃ r : ℝ, m ((c.tc : Thread Cert.KernelIdeal.nD Cert.KernelIdeal.τ).loc Cert.KernelIdeal.main_arg7) i = (r : EReal) :=
  real_S1024x1024 _ ((conj_of_pre m h c).1.1.1.2) i

/-- Under the precondition every entry of the value bias is a real number. -/
theorem real_arg8 (m : (ℓ : Loc Cert.KernelIdeal.nD Cert.KernelIdeal.τ Cert.KernelIdeal.sig) → Buf (Elt Ideal) ℓ)
    (h : Cert.Pre_KernelIdeal m) (c : Dev Cert.KernelIdeal.nD) (i : (⟨1, ![1024]⟩ : Shape).Idx) :
    ∃ r : ℝ, m ((c.tc : Thread Cert.KernelIdeal.nD Cert.KernelIdeal.τ).loc Cert.KernelIdeal.main_arg8) i = (r : EReal) :=
  real_S1024 _ ((conj_of_pre m h c).1.1.2) i

/-- Under the precondition every entry of the output weight is a real number. -/
theorem real_arg9 (m : (ℓ : Loc Cert.KernelIdeal.nD Cert.KernelIdeal.τ Cert.KernelIdeal.sig) → Buf (Elt Ideal) ℓ)
    (h : Cert.Pre_KernelIdeal m) (c : Dev Cert.KernelIdeal.nD) (i : (⟨2, ![1024, 1024]⟩ : Shape).Idx) :
    ∃ r : ℝ, m ((c.tc : Thread Cert.KernelIdeal.nD Cert.KernelIdeal.τ).loc Cert.KernelIdeal.main_arg9) i = (r : EReal) :=
  real_S1024x1024 _ ((conj_of_pre m h c).1.2) i

/-- Under the precondition every entry of the output bias is a real number. -/
theorem real_arg10 (m : (ℓ : Loc Cert.KernelIdeal.nD Cert.KernelIdeal.τ Cert.KernelIdeal.sig) → Buf (Elt Ideal) ℓ)
    (h : Cert.Pre_KernelIdeal m) (c : Dev Cert.KernelIdeal.nD) (i : (⟨1, ![1024]⟩ : Shape).Idx) :
    ∃ r : ℝ, m ((c.tc : Thread Cert.KernelIdeal.nD Cert.KernelIdeal.τ).loc Cert.KernelIdeal.main_arg10) i = (r : EReal) :=
  real_S1024 _ ((conj_of_pre m h c).2) i

end Cert.FiniteInputs

end
-- ==== Proof.KernelRun.lean ====
/-
  The idealized kernel's run with its result named.

  The program is five kernel regions separated by stretches of host operations.  Its buffer contents at
  every boundary are a fold from the launch memory: a host stretch applies its operations, a region
  replaces each of its arrays by what its write-backs leave and keeps every other buffer.  Every weakly
  fair execution terminates without a fault in a state whose unscoped buffers hold the last boundary's
  contents; read at the result buffer this names the result, and read at an argument it walks back to
  the launch memory.  The statement holds at any float instance.
-/
import proofs.«161808_j84293028151875_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer's contents at the last boundary: the last host stretch applied to what the fifth region leaves. -/
abbrev result (c : Dev nD) : Buf (Elt F) ((c.tc : Thread nD τ).loc main_v28) := W11 m ρ c (Proc.devRef .tc main_v28)

set_option backward.isDefEq.respectTransparency.types false in
/-- Every weakly fair execution terminates, nothing faulting, with the result buffer at the last boundary's
    contents and every argument as launched. -/
theorem run : θ_run defs (onTc (τ := τ) (main (F := F))) ⟨m, fun _ => 0, ρ⟩ (fun r => ∀ c : Dev nD,
      r.2.mem ((c.tc : Thread nD τ).loc main_v28) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v28 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c)⟩)

end Cert.KernelIdeal.Whole

end
-- ==== Proof.KernelPayload.lean ====
/-
  The arithmetic of the five kernel bodies read at one index, over the extended reals.

  A linear layer's body computes a [1024,1024] block of `x * w + b`: entry (r, e) is the sum over d of
  x[r,d] * w[d,e], plus b[0,e].  The attention body computes, for one (batch, head) and one half of the
  query rows, the exponentials of the scaled scores shifted by their row maximum, their product with the
  value rows, and divides by the row's total weight.  Format changes are the identity on extended reals.
-/
import proofs.«161808_j84293028151875_2_alg».proof.Proof.Gen.KernelIdeal.Skeleton
import proofs.«161808_j84293028151875_2_alg».proof.Proof.Attention
import Idealize.ShloMosaic.Lib.ValueLayout
import Idealize.ShloMosaic.Lib.ValueIdx
import Idealize.ShloMosaic.PureOps.Ideal.Laws

noncomputable section

namespace Cert.KernelIdeal.Payload

open Idealize.ShloMosaic Idealize.ShloMosaic.ValueIdx Cert.KernelIdeal Cert.KernelIdeal.Gen

/-! ## The [1024,1024] x [1024,1024] product -/

theorem lin_lhs_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
theorem lin_lhs_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem lin_rhs_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem lin_rhs_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The product into the zero accumulator, at (r, e): the sum over d of the operands' products. -/
theorem lin_matmul_apply {φ₁ φ₂ : FTy} (a : FVec Ideal S1024x1024 φ₁) (b : FVec Ideal S1024x1024 φ₂) (r e : Fin 1024) :
    matmul dot_S1024x1024_S1024x1024_S1024x1024_1_0_0_1_n_n none a b (constant S1024x1024 .f32 0x00000000#32) (ix2 r e)
      = ∑ d : Fin 1024, a (ix2 r d) * b (ix2 d e) := by
  show FloatOps.matmul _ _ _ _ _ _ = _
  rw [Ideal.matmul_constant_zero_apply,
    ← Equiv.sum_comp (contrEquiv1 dot_S1024x1024_S1024x1024_S1024x1024_1_0_0_1_n_n 1024 rfl rfl).symm]
  refine Finset.sum_congr rfl fun d _ => ?_
  have hd := contrEquiv1_symm_val dot_S1024x1024_S1024x1024_S1024x1024_1_0_0_1_n_n 1024 rfl rfl d
  have el : dot_S1024x1024_S1024x1024_S1024x1024_1_0_0_1_n_n.lhsIdx (ix2 r e)
      ((contrEquiv1 dot_S1024x1024_S1024x1024_S1024x1024_1_0_0_1_n_n 1024 rfl rfl).symm d) = ix2 r d :=
    funext fun ax => Fin.ext (by
      match ax with
      | ⟨0, _⟩ => exact lin_lhs_0 _ _
      | ⟨1, _⟩ => exact (lin_lhs_1 _ _).trans hd)
  have er : dot_S1024x1024_S1024x1024_S1024x1024_1_0_0_1_n_n.rhsIdx (ix2 r e)
      ((contrEquiv1 dot_S1024x1024_S1024x1024_S1024x1024_1_0_0_1_n_n 1024 rfl rfl).symm d) = ix2 d e :=
    funext fun ax => Fin.ext (by
      match ax with
      | ⟨0, _⟩ => exact (lin_rhs_0 _ _).trans hd
      | ⟨1, _⟩ => exact lin_rhs_1 _ _)
  rw [el, er]

/-! ## The three input layers and the output layer -/

/-- A linear body's block at (r, e), whatever the formats along the way. -/
theorem k0_pay1_apply (x w : Vec Ideal S1024x1024 .f32) (b : Vec Ideal S1x1024 .f32) (r e : Fin 1024) :
    k0_pay1 (F := Ideal) x w b (ix2 r e) = (∑ d : Fin 1024, x (ix2 r d) * w (ix2 d e)) + b (ix2 (0 : Fin 1) e) := by
  unfold k0_pay1
  simp only [shapeCast_self]
  rw [truncf_apply, addf_apply, lin_matmul_apply, broadcastTo_1b_ab_apply]
  rfl

/-- The second input layer's body: the same arithmetic. -/
theorem k1_pay1_apply (x w : Vec Ideal S1024x1024 .f32) (b : Vec Ideal S1x1024 .f32) (r e : Fin 1024) :
    k1_pay1 (F := Ideal) x w b (ix2 r e) = (∑ d : Fin 1024, x (ix2 r d) * w (ix2 d e)) + b (ix2 (0 : Fin 1) e) := by
  unfold k1_pay1
  simp only [shapeCast_self]
  rw [truncf_apply, addf_apply, lin_matmul_apply, broadcastTo_1b_ab_apply]
  rfl

/-- The third input layer's body: the same arithmetic. -/
theorem k2_pay1_apply (x w : Vec Ideal S1024x1024 .f32) (b : Vec Ideal S1x1024 .f32) (r e : Fin 1024) :
    k2_pay1 (F := Ideal) x w b (ix2 r e) = (∑ d : Fin 1024, x (ix2 r d) * w (ix2 d e)) + b (ix2 (0 : Fin 1) e) := by
  unfold k2_pay1
  simp only [shapeCast_self]
  rw [truncf_apply, addf_apply, lin_matmul_apply, broadcastTo_1b_ab_apply]
  rfl

/-- The output layer's body: its left operand arrives in the narrow format and the result stays wide; the
    arithmetic is the same. -/
theorem k4_pay1_apply (x : Vec Ideal S1024x1024 .bf16) (w : Vec Ideal S1024x1024 .f32) (b : Vec Ideal S1x1024 .f32)
    (r e : Fin 1024) :
    k4_pay1 (F := Ideal) x w b (ix2 r e) = (∑ d : Fin 1024, x (ix2 r d) * w (ix2 d e)) + b (ix2 (0 : Fin 1) e) := by
  unfold k4_pay1
  simp only [shapeCast_self]
  rw [addf_apply, lin_matmul_apply, broadcastTo_1b_ab_apply]
  rfl

/-! ## Column forms of the layout operations (a row reduction kept as a column) -/

section Columns
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## The two row reductions of a [1024, 2048] array -/

/-- The index a reduction along the second axis reads: row `s`, position `t`. -/
theorem lift_row (h : S1024x2048.Reduces [1] S1024) (s : Fin 1024) (t : Fin 2048) :
    h.lift (ix1 s) t = ix2 s t := by
  refine funext fun ax => Fin.ext ?_
  match ax with
  | ⟨0, _⟩ => rfl
  | ⟨1, _⟩ => rfl

/-- A row's maximum, kept as a column and spread over a row of any width: the fold of `max` over the row from
    the accumulator's value. -/
theorem rowMax_col_apply {b : ℕ} (x : FVec Ideal S1024x2048 .f32) (acc : BitVec 32) (h : S1024x2048.Reduces [1] S1024)
    (hφ : FKind.Formats .f32) (hacc : acc = FKind.maximumf.neutral .f32 hφ) (hc : S1024.ShapeCasts S1024x1)
    (hb : S1024x1.Broadcasts ⟨2, ![1024, b]⟩) (s : Fin 1024) (c : Fin b) :
    broadcastTo ⟨2, ![1024, b]⟩ (shapeCast S1024x1 (multiReduction .maximumf [1] S1024 x acc h hφ hacc) hc) hb (ix2 s c)
      = (Finset.univ : Finset (Fin 2048)).fold max (Ideal.ofBits .f32 acc) (fun t => x (ix2 s t)) := by
  refine (broadcastTo_a1_ab_apply _ hb s c).trans ?_
  refine (shapeCast_a_a1_apply _ hc s 0).trans ?_
  refine (Ideal.multiReduction_maximumf_single x acc h hφ hacc (ix1 s)).trans ?_
  have e : (x ∘ h.lift (ix1 s)) = fun t : Fin 2048 => x (ix2 s t) := funext fun t => congrArg x (lift_row h s t)
  rw [e]
  rfl

/-- A row's sum, kept as a column and spread over a row of any width. -/
theorem rowSum_col_apply {b : ℕ} (x : FVec Ideal S1024x2048 .f32) (acc : BitVec 32) (h : S1024x2048.Reduces [1] S1024)
    (hφ : FKind.Formats .f32) (hacc : acc = FKind.add.neutral .f32 hφ) (hc : S1024.ShapeCasts S1024x1)
    (hb : S1024x1.Broadcasts ⟨2, ![1024, b]⟩) (s : Fin 1024) (c : Fin b) :
    broadcastTo ⟨2, ![1024, b]⟩ (shapeCast S1024x1 (multiReduction .add [1] S1024 x acc h hφ hacc) hc) hb (ix2 s c)
      = ∑ t : Fin 2048, x (ix2 s t) := by
  refine (broadcastTo_a1_ab_apply _ hb s c).trans ?_
  refine (shapeCast_a_a1_apply _ hc s 0).trans ?_
  refine (Ideal.multiReduction_add_single x acc h hφ hacc (ix1 s)).trans ?_
  exact Finset.sum_congr rfl fun t _ => congrArg x (lift_row h s t)

/-! ## The two products of the attention body -/

theorem qk_lhs_0 (i : S1024x2048.Idx) (q : dot_S1024x64_S2048x64_S1024x2048_1_1_0_0_n_n.contr.Idx) : (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide),
    dif_pos (show (0 : Fin S1024x64.rank) ∈ dot_S1024x64_S2048x64_S1024x2048_1_1_0_0_n_n.lhsNonContracting by decide)]
  rfl
theorem qk_lhs_1 (i : S1024x2048.Idx) (q : dot_S1024x64_S2048x64_S1024x2048_1_1_0_0_n_n.contr.Idx) : (dot_S1024x64_S2048x64_S1024x2048_1_1_0_0_n_n.lhsIdx i q 1).val = (q ⟨0, by decide⟩).val :=
  dot_S1024x64_S2048x64_S1024x2048_1_1_0_0_n_n.lhsIdx_val_of_single rfl i q
theorem qk_rhs_0 (i : S1024x2048.Idx) (q : dot_S1024x64_S2048x64_S1024x2048_1_1_0_0_n_n.contr.Idx) : (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide),
    dif_pos (show (0 : Fin S2048x64.rank) ∈ dot_S1024x64_S2048x64_S1024x2048_1_1_0_0_n_n.rhsNonContracting by decide)]
  rfl
theorem qk_rhs_1 (i : S1024x2048.Idx) (q : dot_S1024x64_S2048x64_S1024x2048_1_1_0_0_n_n.contr.Idx) : (dot_S1024x64_S2048x64_S1024x2048_1_1_0_0_n_n.rhsIdx i q 1).val = (q ⟨0, by decide⟩).val :=
  dot_S1024x64_S2048x64_S1024x2048_1_1_0_0_n_n.rhsIdx_val_of_single rfl i q

/-- Queries against keys, both contracted along their 64 coordinates: at (s, t) the dot product of query row `s`
    and key row `t`. -/
theorem qk_matmul_apply {φ₁ φ₂ : FTy} (a : FVec Ideal S1024x64 φ₁) (b : FVec Ideal S2048x64 φ₂) (s : Fin 1024) (t : Fin 2048) :
    matmul dot_S1024x64_S2048x64_S1024x2048_1_1_0_0_n_n none a b (constant S1024x2048 .f32 0x00000000#32) (ix2 s t)
      = ∑ j : Fin 64, a (ix2 s j) * b (ix2 t j) := by
  show FloatOps.matmul _ _ _ _ _ _ = _
  rw [Ideal.matmul_constant_zero_apply, ← Equiv.sum_comp (contrEquiv1 dot_S1024x64_S2048x64_S1024x2048_1_1_0_0_n_n 64 rfl rfl).symm]
  refine Finset.sum_congr rfl fun j _ => ?_
  have hj := contrEquiv1_symm_val dot_S1024x64_S2048x64_S1024x2048_1_1_0_0_n_n 64 rfl rfl j
  have el : dot_S1024x64_S2048x64_S1024x2048_1_1_0_0_n_n.lhsIdx (ix2 s t) ((contrEquiv1 dot_S1024x64_S2048x64_S1024x2048_1_1_0_0_n_n 64 rfl rfl).symm j) = ix2 s j :=
    funext fun ax => Fin.ext (by
      match ax with
      | ⟨0, _⟩ => exact qk_lhs_0 _ _
      | ⟨1, _⟩ => exact (qk_lhs_1 _ _).trans hj)
  have er : dot_S1024x64_S2048x64_S1024x2048_1_1_0_0_n_n.rhsIdx (ix2 s t) ((contrEquiv1 dot_S1024x64_S2048x64_S1024x2048_1_1_0_0_n_n 64 rfl rfl).symm j) = ix2 t j :=
    funext fun ax => Fin.ext (by
      match ax with
      | ⟨0, _⟩ => exact qk_rhs_0 _ _
      | ⟨1, _⟩ => exact (qk_rhs_1 _ _).trans hj)
  rw [el, er]

theorem pv_lhs_0 (i : S1024x64.Idx) (q : dot_S1024x2048_S2048x64_S1024x64_1_0_0_1_n_n.contr.Idx) : (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide),
    dif_pos (show (0 : Fin S1024x2048.rank) ∈ dot_S1024x2048_S2048x64_S1024x64_1_0_0_1_n_n.lhsNonContracting by decide)]
  rfl
theorem pv_lhs_1 (i : S1024x64.Idx) (q : dot_S1024x2048_S2048x64_S1024x64_1_0_0_1_n_n.contr.Idx) : (dot_S1024x2048_S2048x64_S1024x64_1_0_0_1_n_n.lhsIdx i q 1).val = (q ⟨0, by decide⟩).val :=
  dot_S1024x2048_S2048x64_S1024x64_1_0_0_1_n_n.lhsIdx_val_of_single rfl i q
theorem pv_rhs_0 (i : S1024x64.Idx) (q : dot_S1024x2048_S2048x64_S1024x64_1_0_0_1_n_n.contr.Idx) : (dot_S1024x2048_S2048x64_S1024x64_1_0_0_1_n_n.rhsIdx i q 0).val = (q ⟨0, by decide⟩).val :=
  dot_S1024x2048_S2048x64_S1024x64_1_0_0_1_n_n.rhsIdx_val_of_single rfl i q
theorem pv_rhs_1 (i : S1024x64.Idx) (q : dot_S1024x2048_S2048x64_S1024x64_1_0_0_1_n_n.contr.Idx) : (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide),
    dif_pos (show (1 : Fin S2048x64.rank) ∈ dot_S1024x2048_S2048x64_S1024x64_1_0_0_1_n_n.rhsNonContracting by decide)]
  rfl

/-- Weights against value rows: at (s, j) the sum over the 2048 positions. -/
theorem pv_matmul_apply {φ₁ φ₂ : FTy} (a : FVec Ideal S1024x2048 φ₁) (b : FVec Ideal S2048x64 φ₂) (s : Fin 1024) (j : Fin 64) :
    matmul dot_S1024x2048_S2048x64_S1024x64_1_0_0_1_n_n none a b (constant S1024x64 .f32 0x00000000#32) (ix2 s j)
      = ∑ t : Fin 2048, a (ix2 s t) * b (ix2 t j) := by
  show FloatOps.matmul _ _ _ _ _ _ = _
  rw [Ideal.matmul_constant_zero_apply, ← Equiv.sum_comp (contrEquiv1 dot_S1024x2048_S2048x64_S1024x64_1_0_0_1_n_n 2048 rfl rfl).symm]
  refine Finset.sum_congr rfl fun t _ => ?_
  have ht := contrEquiv1_symm_val dot_S1024x2048_S2048x64_S1024x64_1_0_0_1_n_n 2048 rfl rfl t
  have el : dot_S1024x2048_S2048x64_S1024x64_1_0_0_1_n_n.lhsIdx (ix2 s j) ((contrEquiv1 dot_S1024x2048_S2048x64_S1024x64_1_0_0_1_n_n 2048 rfl rfl).symm t) = ix2 s t :=
    funext fun ax => Fin.ext (by
      match ax with
      | ⟨0, _⟩ => exact pv_lhs_0 _ _
      | ⟨1, _⟩ => exact (pv_lhs_1 _ _).trans ht)
  have er : dot_S1024x2048_S2048x64_S1024x64_1_0_0_1_n_n.rhsIdx (ix2 s j) ((contrEquiv1 dot_S1024x2048_S2048x64_S1024x64_1_0_0_1_n_n 2048 rfl rfl).symm t) = ix2 t j :=
    funext fun ax => Fin.ext (by
      match ax with
      | ⟨0, _⟩ => exact (pv_rhs_0 _ _).trans ht
      | ⟨1, _⟩ => exact pv_rhs_1 _ _)
  rw [el, er]

/-! ## The attention body, stage by stage -/

/-- The scaled scores as the body forms them: queries against keys, times the splat of the 1/8 word. -/
def scoresVec (a : FVec Ideal S1024x64 .bf16) (b : FVec Ideal S2048x64 .bf16) : FVec Ideal S1024x2048 .f32 :=
  mulf (matmul dot_S1024x64_S2048x64_S1024x2048_1_1_0_0_n_n none a b (constant S1024x2048 .f32 0x00000000#32))
    (broadcast S1024x2048 (Scalar.ofBits .f32 0x3E000000#32))

/-- The weights as the body forms them: every score minus its row's maximum, exponentiated. -/
def weightsVec (x : FVec Ideal S1024x2048 .f32) : FVec Ideal S1024x2048 .f32 :=
  exp (subf x (broadcastTo S1024x2048 (shapeCast S1024x1
    (multiReduction .maximumf [1] S1024 x 0xFF800000#32 reduces_S1024x2048_S1024 (.inl rfl) rfl)
    shapeCasts_S1024_S1024x1) broadcasts_S1024x1_S1024x2048))

/-- The body's quotient: the weights against the value rows, over the row's total weight. -/
def quotVec (w : FVec Ideal S1024x2048 .f32) (b : FVec Ideal S2048x64 .bf16) : FVec Ideal S1024x64 .f32 :=
  divf (matmul dot_S1024x2048_S2048x64_S1024x64_1_0_0_1_n_n none (truncf .bf16 w bitsLt_bf16_f32) b (constant S1024x64 .f32 0x00000000#32))
    (broadcastTo S1024x64 (shapeCast S1024x1
      (multiReduction .add [1] S1024 w 0x00000000#32 reduces_S1024x2048_S1024 (.inl rfl) rfl)
      shapeCasts_S1024_S1024x1) broadcasts_S1024x1_S1024x64)

/-- The attention body is those three stages between the casts that drop and restore the block's unit axis. -/
theorem k3_pay1_eq (q : Vec Ideal S1x1024x64 .bf16) (k v : Vec Ideal S1x2048x64 .bf16) :
    k3_pay1 (F := Ideal) q k v
      = shapeCast S1x1024x64 (truncf .bf16 (quotVec (weightsVec (scoresVec
          (shapeCast S1024x64 q shapeCasts_S1x1024x64_S1024x64) (shapeCast S2048x64 k shapeCasts_S1x2048x64_S2048x64)))
          (shapeCast S2048x64 v shapeCasts_S1x2048x64_S2048x64)) bitsLt_bf16_f32) shapeCasts_S1024x64_S1x1024x64 := rfl

/-- A scaled score at (s, t): the dot product of query row `s` and key row `t`, times 1/8. -/
theorem scoresVec_apply (a : FVec Ideal S1024x64 .bf16) (b : FVec Ideal S2048x64 .bf16) (s : Fin 1024) (t : Fin 2048) :
    scoresVec a b (ix2 s t) = (∑ j : Fin 64, a (ix2 s j) * b (ix2 t j)) * Attention.eighth := by
  unfold scoresVec
  rw [mulf_apply, qk_matmul_apply]
  rfl

/-- A weight at (s, t), in the words of the specification. -/
theorem weightsVec_apply (x : FVec Ideal S1024x2048 .f32) (s : Fin 1024) (t : Fin 2048) :
    weightsVec x (ix2 s t)
      = Attention.weight (fun t' => x (ix2 s t')) (Attention.rowMax fun t' => x (ix2 s t')) t := by
  unfold weightsVec Attention.weight Attention.rowMax
  exact congrArg (fun m => Ideal.exp (x (ix2 s t) - m))
    (rowMax_col_apply x 0xFF800000#32 reduces_S1024x2048_S1024 (.inl rfl) rfl shapeCasts_S1024_S1024x1
      broadcasts_S1024x1_S1024x2048 s t)

/-- The quotient at (s, j). -/
theorem quotVec_apply (w : FVec Ideal S1024x2048 .f32) (b : FVec Ideal S2048x64 .bf16) (s : Fin 1024) (j : Fin 64) :
    quotVec w b (ix2 s j) = Ideal.div (∑ t : Fin 2048, w (ix2 s t) * b (ix2 t j)) (∑ t : Fin 2048, w (ix2 s t)) := by
  unfold quotVec
  rw [divf_apply, pv_matmul_apply]
  exact congrArg (Ideal.div _)
    (rowSum_col_apply w 0x00000000#32 reduces_S1024x2048_S1024 (.inl rfl) rfl shapeCasts_S1024_S1024x1
      broadcasts_S1024x1_S1024x64 s j)

/-! ## The attention body at an index -/

/-- The attention body's block at (0, s, j): attention of the query row it was given (row `s` of its block of
    queries, which is row `s'` of the head's 2048 query rows) over all 2048 keys and value rows of the head. -/
theorem attn_payload (q : Vec Ideal S1x1024x64 .bf16) (k v : Vec Ideal S1x2048x64 .bf16)
    (q' : Fin 2048 → Fin 64 → EReal) (s : Fin 1024) (s' : Fin 2048) (hq : ∀ j, q' s' j = q (ix3 0 s j)) (j : Fin 64) :
    k3_pay1 (F := Ideal) q k v (ix3 0 s j)
      = Attention.attnSumThenDivide q' (fun t j => k (ix3 0 t j)) (fun t j => v (ix3 0 t j)) s' j := by
  have hrow : (fun t' : Fin 2048 => scoresVec (shapeCast S1024x64 q shapeCasts_S1x1024x64_S1024x64)
        (shapeCast S2048x64 k shapeCasts_S1x2048x64_S2048x64) (ix2 s t'))
      = Attention.scoreMul q' (fun t j => k (ix3 0 t j)) s' := by
    funext t'
    rw [scoresVec_apply]
    unfold Attention.scoreMul Attention.dots
    refine congrArg (· * Attention.eighth) (Finset.sum_congr rfl fun j' _ => ?_)
    rw [shapeCast_1ab_ab_apply, shapeCast_1ab_ab_apply, hq]
  have hw : ∀ t : Fin 2048, weightsVec (scoresVec (shapeCast S1024x64 q shapeCasts_S1x1024x64_S1024x64)
        (shapeCast S2048x64 k shapeCasts_S1x2048x64_S2048x64)) (ix2 s t)
      = Attention.weight (Attention.scoreMul q' (fun t j => k (ix3 0 t j)) s')
          (Attention.rowMax (Attention.scoreMul q' (fun t j => k (ix3 0 t j)) s')) t := by
    intro t
    rw [weightsVec_apply, hrow]
  rw [k3_pay1_eq]
  refine (shapeCast_ab_1ab_apply _ _ 0 s j).trans ?_
  rw [truncf_apply, quotVec_apply]
  unfold Attention.attnSumThenDivide
  simp only [hw, shapeCast_1ab_ab_apply]

/-- The same at any index of the block: its unit coordinate is 0, its row and column are read off the index. -/
theorem k3_pay1_apply (q : Vec Ideal S1x1024x64 .bf16) (k v : Vec Ideal S1x2048x64 .bf16)
    (q' : Fin 2048 → Fin 64 → EReal) (s' : Fin 2048) (y : S1x1024x64.Idx)
    (hq : ∀ j : Fin 64, q' s' j = q (ix3 (0 : Fin 1) (y 1) j)) :
    k3_pay1 (F := Ideal) q k v y
      = Cert.Attention.attnSumThenDivide q' (fun t j => k (ix3 (0 : Fin 1) t j)) (fun t j => v (ix3 (0 : Fin 1) t j)) s' (y 2) := by
  obtain ⟨u, s, j, rfl⟩ : ∃ (u : Fin 1) (s : Fin 1024) (j : Fin 64), y = ix3 u s j := ⟨y 0, y 1, y 2, eq_ix3 y⟩
  obtain rfl : u = 0 := Subsingleton.elim _ _
  exact attn_payload q k v q' s s' hq j

end Cert.KernelIdeal.Payload

end
-- ==== Proof.LinearRegions.lean ====
/-
  The four linear layers of the kernel, each as one function of the arrays its region finds.

  A linear region walks the 8192 flattened rows in eight blocks of 1024.  At a grid point the body
  loads a block of rows, the whole transposed weight matrix and the bias row, multiplies and adds:
  entry (r, e) of the block is the dot product of row r with column e of the transposed weights plus
  bias e.  The weights and the bias do not move with the point and the row block moves with the output
  block, so what a point writes back is the block of ONE whole-array function, `linOut`; the eight
  blocks tile the output, hence the output array ends holding `linOut` of the region's inputs.
-/
import proofs.«161808_j84293028151875_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«161808_j84293028151875_2_alg».proof.Proof.KernelPayload

set_option maxRecDepth 16384

noncomputable section

namespace Cert.KernelIdeal.Linear

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- A linear layer on flattened rows: entry `(r, e)` is the dot product of row `r` of `x` with column `e` of `w`
    (the transposed weight matrix), plus entry `e` of the bias row. -/
def linOut (x : S8192x1024.Idx → EReal) (w : S1024x1024.Idx → EReal) (b : S1x1024.Idx → EReal) : S8192x1024.Idx → EReal :=
  fun i => (∑ d : Fin 1024, x (ix2 (⟨(i 0).val, idx2_lt0 i⟩ : Fin 8192) d) * w (ix2 d (⟨(i 1).val, idx2_lt1 i⟩ : Fin 1024)))
    + b (ix2 (0 : Fin 1) (⟨(i 1).val, idx2_lt1 i⟩ : Fin 1024))

theorem lin_point0 (x : Vec Ideal S1024x1024 .f32) (w : Vec Ideal S1024x1024 .f32) (b : Vec Ideal S1x1024 .f32) (j : S1024x1024.Idx) :
    k0_pay1 (F := Ideal) x w b j = (∑ d : Fin 1024, x (ix2 (j 0) d) * w (ix2 d (j 1))) + b (ix2 (0 : Fin 1) (j 1)) :=
  (congrArg (k0_pay1 (F := Ideal) x w b) (eq_ix2 j)).trans (Cert.KernelIdeal.Payload.k0_pay1_apply x w b (j 0) (j 1))

theorem lin_point1 (x : Vec Ideal S1024x1024 .f32) (w : Vec Ideal S1024x1024 .f32) (b : Vec Ideal S1x1024 .f32) (j : S1024x1024.Idx) :
    k1_pay1 (F := Ideal) x w b j = (∑ d : Fin 1024, x (ix2 (j 0) d) * w (ix2 d (j 1))) + b (ix2 (0 : Fin 1) (j 1)) :=
  (congrArg (k1_pay1 (F := Ideal) x w b) (eq_ix2 j)).trans (Cert.KernelIdeal.Payload.k1_pay1_apply x w b (j 0) (j 1))

theorem lin_point2 (x : Vec Ideal S1024x1024 .f32) (w : Vec Ideal S1024x1024 .f32) (b : Vec Ideal S1x1024 .f32) (j : S1024x1024.Idx) :
    k2_pay1 (F := Ideal) x w b j = (∑ d : Fin 1024, x (ix2 (j 0) d) * w (ix2 d (j 1))) + b (ix2 (0 : Fin 1) (j 1)) :=
  (congrArg (k2_pay1 (F := Ideal) x w b) (eq_ix2 j)).trans (Cert.KernelIdeal.Payload.k2_pay1_apply x w b (j 0) (j 1))

theorem lin_point4 (x : Vec Ideal S1024x1024 .bf16) (w : Vec Ideal S1024x1024 .f32) (b : Vec Ideal S1x1024 .f32) (j : S1024x1024.Idx) :
    k4_pay1 (F := Ideal) x w b j = (∑ d : Fin 1024, x (ix2 (j 0) d) * w (ix2 d (j 1))) + b (ix2 (0 : Fin 1) (j 1)) :=
  (congrArg (k4_pay1 (F := Ideal) x w b) (eq_ix2 j)).trans (Cert.KernelIdeal.Payload.k4_pay1_apply x w b (j 0) (j 1))

/-! ## Region 0: rows of `main_v0` against `main_v3`, bias `main_v7`, into `main_v8` -/

theorem idx_facts0 : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = 0 ∧ win0_2.index t (0 : Fin 2) = 0 ∧ win0_2.index t (1 : Fin 2) = 0
    ∧ win0_3.index t (1 : Fin 2) = 0 ∧ win0_3.index t (0 : Fin 2) ≤ 7 :=
  (by decide +kernel : ∀ t : Fin grid0.N, _)

/-- Every one of the eight row blocks is some point's. -/
theorem idx_onto0 : ∀ q : Fin 8, ∃ t : Fin cfg0.N, win0_3.index t (0 : Fin 2) = q.val :=
  (by decide +kernel : ∀ q : Fin 8, ∃ t : Fin grid0.N, win0_3.index t (0 : Fin 2) = q.val)

/-- What point `t` writes back is block `t` of the linear layer of the arrays the region finds. -/
theorem flushed0 (c : Dev nD) (t : Fin cfg0.N) :
    (dat0 V c).flushed 3 t = ((cfg0.win 3).blk t).view.read (Elt Ideal) (linOut (V c main_v0) (V c main_v3) (V c main_v7)) := by
  show (cfg0.win 3).cut (grid0.coords t) ((dat0 V c).after 3 t) = _
  rw [after0_3]
  unfold out0_3
  rw [View.canon_unit_zero hz2]
  simp only [View.ld_unit_zero (S := S1024x1024) hz2, View.ld_unit_zero (S := S1x1024) hz2]
  obtain ⟨e0, e1, e2, e3, e4, e5, e6, e7⟩ := idx_facts0 t
  funext j
  show k0_pay1 (iblk0 V c 0 t) (iblk0 V c 1 t) (iblk0 V c 2 t) j = linOut (V c main_v0) (V c main_v3) (V c main_v7) (((cfg0.win 3).blk t).view.emb j)
  refine (lin_point0 _ _ _ j).trans ?_
  unfold linOut
  refine congrArg₂ (· + ·) (Finset.sum_congr rfl fun d _ => congrArg₂ (· * ·) ?_ ?_) ?_
  · show V c main_v0 (((cfg0.win 0).blk t).view.emb (ix2 (j 0) d)) = V c main_v0 _
    refine congrArg (V c main_v0) (funext fun a => Fin.ext ?_)
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 1024 + 1 * d.val = d.val; omega
  · show V c main_v3 (((cfg0.win 1).blk t).view.emb (ix2 d (j 1))) = V c main_v3 _
    refine congrArg (V c main_v3) (funext fun a => Fin.ext ?_)
    match a with
    | ⟨0, _⟩ => show win0_1.index t (0 : Fin 2) * 1024 + 1 * d.val = d.val; omega
    | ⟨1, _⟩ => show win0_1.index t (1 : Fin 2) * 1024 + 1 * (j 1).val = win0_3.index t (1 : Fin 2) * 1024 + 1 * (j 1).val; omega
  · show V c main_v7 (((cfg0.win 2).blk t).view.emb (ix2 (0 : Fin 1) (j 1))) = V c main_v7 _
    refine congrArg (V c main_v7) (funext fun a => Fin.ext ?_)
    match a with
    | ⟨0, _⟩ => show win0_2.index t (0 : Fin 2) * 1 + 1 * 0 = 0; omega
    | ⟨1, _⟩ => show win0_2.index t (1 : Fin 2) * 1024 + 1 * (j 1).val = win0_3.index t (1 : Fin 2) * 1024 + 1 * (j 1).val; omega

/-- An index of the output array is in point `t`'s block iff each coordinate is in the block's range. -/
theorem mem_blk0 (t : Fin cfg0.N) (i : S8192x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v8).slice (win0_3.rect t)).set ↔ _
  rw [View.set_slice_whole, Rect.mem_set_unit]
  exact Iff.rfl

/-- The eight row blocks cover the output array. -/
theorem cover0 (i : S8192x1024.Idx) : ∃ t : Fin cfg0.N, (cfg0.win 3).flush t = true ∧ i ∈ ((cfg0.win 3).blk t).view.set := by
  have hi0 : (i 0).val < 8192 := (i 0).isLt
  have hi1 : (i 1).val < 1024 := (i 1).isLt
  obtain ⟨t, ht⟩ := idx_onto0 ⟨(i 0).val / 1024, by omega⟩
  have q0 : win0_3.index t (0 : Fin 2) = (i 0).val / 1024 := ht
  obtain ⟨e0, e1, e2, e3, e4, e5, e6, e7⟩ := idx_facts0 t
  refine ⟨t, flush0_3 t, ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The output array after the region: the linear layer of the arrays the region finds. -/
theorem final0 (c : Dev nD) : (dat0 V c).arrAt 3 cfg0.N = linOut (V c main_v0) (V c main_v3) (V c main_v7) :=
  (dat0 V c).arrAt_eq_of_cover 3 _ (fun t _ => flushed0 V c t) (cover0)

/-! ## Region 1: rows of `main_v1` against `main_v4`, bias `main_v9`, into `main_v10` -/

theorem idx_facts1 : ∀ t : Fin cfg1.N, win1_0.index t (0 : Fin 2) = win1_3.index t (0 : Fin 2) ∧ win1_0.index t (1 : Fin 2) = 0
    ∧ win1_1.index t (0 : Fin 2) = 0 ∧ win1_1.index t (1 : Fin 2) = 0 ∧ win1_2.index t (0 : Fin 2) = 0 ∧ win1_2.index t (1 : Fin 2) = 0
    ∧ win1_3.index t (1 : Fin 2) = 0 ∧ win1_3.index t (0 : Fin 2) ≤ 7 :=
  (by decide +kernel : ∀ t : Fin grid1.N, _)

/-- Every one of the eight row blocks is some point's. -/
theorem idx_onto1 : ∀ q : Fin 8, ∃ t : Fin cfg1.N, win1_3.index t (0 : Fin 2) = q.val :=
  (by decide +kernel : ∀ q : Fin 8, ∃ t : Fin grid1.N, win1_3.index t (0 : Fin 2) = q.val)

/-- What point `t` writes back is block `t` of the linear layer of the arrays the region finds. -/
theorem flushed1 (c : Dev nD) (t : Fin cfg1.N) :
    (dat1 V c).flushed 3 t = ((cfg1.win 3).blk t).view.read (Elt Ideal) (linOut (V c main_v1) (V c main_v4) (V c main_v9)) := by
  show (cfg1.win 3).cut (grid1.coords t) ((dat1 V c).after 3 t) = _
  rw [after1_3]
  unfold out1_3
  rw [View.canon_unit_zero hz2]
  simp only [View.ld_unit_zero (S := S1024x1024) hz2, View.ld_unit_zero (S := S1x1024) hz2]
  obtain ⟨e0, e1, e2, e3, e4, e5, e6, e7⟩ := idx_facts1 t
  funext j
  show k1_pay1 (iblk1 V c 0 t) (iblk1 V c 1 t) (iblk1 V c 2 t) j = linOut (V c main_v1) (V c main_v4) (V c main_v9) (((cfg1.win 3).blk t).view.emb j)
  refine (lin_point1 _ _ _ j).trans ?_
  unfold linOut
  refine congrArg₂ (· + ·) (Finset.sum_congr rfl fun d _ => congrArg₂ (· * ·) ?_ ?_) ?_
  · show V c main_v1 (((cfg1.win 0).blk t).view.emb (ix2 (j 0) d)) = V c main_v1 _
    refine congrArg (V c main_v1) (funext fun a => Fin.ext ?_)
    match a with
    | ⟨0, _⟩ => show win1_0.index t (0 : Fin 2) * 1024 + 1 * (j 0).val = win1_3.index t (0 : Fin 2) * 1024 + 1 * (j 0).val; omega
    | ⟨1, _⟩ => show win1_0.index t (1 : Fin 2) * 1024 + 1 * d.val = d.val; omega
  · show V c main_v4 (((cfg1.win 1).blk t).view.emb (ix2 d (j 1))) = V c main_v4 _
    refine congrArg (V c main_v4) (funext fun a => Fin.ext ?_)
    match a with
    | ⟨0, _⟩ => show win1_1.index t (0 : Fin 2) * 1024 + 1 * d.val = d.val; omega
    | ⟨1, _⟩ => show win1_1.index t (1 : Fin 2) * 1024 + 1 * (j 1).val = win1_3.index t (1 : Fin 2) * 1024 + 1 * (j 1).val; omega
  · show V c main_v9 (((cfg1.win 2).blk t).view.emb (ix2 (0 : Fin 1) (j 1))) = V c main_v9 _
    refine congrArg (V c main_v9) (funext fun a => Fin.ext ?_)
    match a with
    | ⟨0, _⟩ => show win1_2.index t (0 : Fin 2) * 1 + 1 * 0 = 0; omega
    | ⟨1, _⟩ => show win1_2.index t (1 : Fin 2) * 1024 + 1 * (j 1).val = win1_3.index t (1 : Fin 2) * 1024 + 1 * (j 1).val; omega

/-- An index of the output array is in point `t`'s block iff each coordinate is in the block's range. -/
theorem mem_blk1 (t : Fin cfg1.N) (i : S8192x1024.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v10).slice (win1_3.rect t)).set ↔ _
  rw [View.set_slice_whole, Rect.mem_set_unit]
  exact Iff.rfl

/-- The eight row blocks cover the output array. -/
theorem cover1 (i : S8192x1024.Idx) : ∃ t : Fin cfg1.N, (cfg1.win 3).flush t = true ∧ i ∈ ((cfg1.win 3).blk t).view.set := by
  have hi0 : (i 0).val < 8192 := (i 0).isLt
  have hi1 : (i 1).val < 1024 := (i 1).isLt
  obtain ⟨t, ht⟩ := idx_onto1 ⟨(i 0).val / 1024, by omega⟩
  have q0 : win1_3.index t (0 : Fin 2) = (i 0).val / 1024 := ht
  obtain ⟨e0, e1, e2, e3, e4, e5, e6, e7⟩ := idx_facts1 t
  refine ⟨t, flush1_3 t, ?_⟩
  rw [mem_blk1]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

/-- The output array after the region: the linear layer of the arrays the region finds. -/
theorem final1 (c : Dev nD) : (dat1 V c).arrAt 3 cfg1.N = linOut (V c main_v1) (V c main_v4) (V c main_v9) :=
  (dat1 V c).arrAt_eq_of_cover 3 _ (fun t _ => flushed1 V c t) (cover1)

/-! ## Region 2: rows of `main_v2` against `main_v5`, bias `main_v11`, into `main_v12` -/

theorem idx_facts2 : ∀ t : Fin cfg2.N, win2_0.index t (0 : Fin 2) = win2_3.index t (0 : Fin 2) ∧ win2_0.index t (1 : Fin 2) = 0
    ∧ win2_1.index t (0 : Fin 2) = 0 ∧ win2_1.index t (1 : Fin 2) = 0 ∧ win2_2.index t (0 : Fin 2) = 0 ∧ win2_2.index t (1 : Fin 2) = 0
    ∧ win2_3.index t (1 : Fin 2) = 0 ∧ win2_3.index t (0 : Fin 2) ≤ 7 :=
  (by decide +kernel : ∀ t : Fin grid2.N, _)

/-- Every one of the eight row blocks is some point's. -/
theorem idx_onto2 : ∀ q : Fin 8, ∃ t : Fin cfg2.N, win2_3.index t (0 : Fin 2) = q.val :=
  (by decide +kernel : ∀ q : Fin 8, ∃ t : Fin grid2.N, win2_3.index t (0 : Fin 2) = q.val)

/-- What point `t` writes back is block `t` of the linear layer of the arrays the region finds. -/
theorem flushed2 (c : Dev nD) (t : Fin cfg2.N) :
    (dat2 V c).flushed 3 t = ((cfg2.win 3).blk t).view.read (Elt Ideal) (linOut (V c main_v2) (V c main_v5) (V c main_v11)) := by
  show (cfg2.win 3).cut (grid2.coords t) ((dat2 V c).after 3 t) = _
  rw [after2_3]
  unfold out2_3
  rw [View.canon_unit_zero hz2]
  simp only [View.ld_unit_zero (S := S1024x1024) hz2, View.ld_unit_zero (S := S1x1024) hz2]
  obtain ⟨e0, e1, e2, e3, e4, e5, e6, e7⟩ := idx_facts2 t
  funext j
  show k2_pay1 (iblk2 V c 0 t) (iblk2 V c 1 t) (iblk2 V c 2 t) j = linOut (V c main_v2) (V c main_v5) (V c main_v11) (((cfg2.win 3).blk t).view.emb j)
  refine (lin_point2 _ _ _ j).trans ?_
  unfold linOut
  refine congrArg₂ (· + ·) (Finset.sum_congr rfl fun d _ => congrArg₂ (· * ·) ?_ ?_) ?_
  · show V c main_v2 (((cfg2.win 0).blk t).view.emb (ix2 (j 0) d)) = V c main_v2 _
    refine congrArg (V c main_v2) (funext fun a => Fin.ext ?_)
    match a with
    | ⟨0, _⟩ => show win2_0.index t (0 : Fin 2) * 1024 + 1 * (j 0).val = win2_3.index t (0 : Fin 2) * 1024 + 1 * (j 0).val; omega
    | ⟨1, _⟩ => show win2_0.index t (1 : Fin 2) * 1024 + 1 * d.val = d.val; omega
  · show V c main_v5 (((cfg2.win 1).blk t).view.emb (ix2 d (j 1))) = V c main_v5 _
    refine congrArg (V c main_v5) (funext fun a => Fin.ext ?_)
    match a with
    | ⟨0, _⟩ => show win2_1.index t (0 : Fin 2) * 1024 + 1 * d.val = d.val; omega
    | ⟨1, _⟩ => show win2_1.index t (1 : Fin 2) * 1024 + 1 * (j 1).val = win2_3.index t (1 : Fin 2) * 1024 + 1 * (j 1).val; omega
  · show V c main_v11 (((cfg2.win 2).blk t).view.emb (ix2 (0 : Fin 1) (j 1))) = V c main_v11 _
    refine congrArg (V c main_v11) (funext fun a => Fin.ext ?_)
    match a with
    | ⟨0, _⟩ => show win2_2.index t (0 : Fin 2) * 1 + 1 * 0 = 0; omega
    | ⟨1, _⟩ => show win2_2.index t (1 : Fin 2) * 1024 + 1 * (j 1).val = win2_3.index t (1 : Fin 2) * 1024 + 1 * (j 1).val; omega

/-- An index of the output array is in point `t`'s block iff each coordinate is in the block's range. -/
theorem mem_blk2 (t : Fin cfg2.N) (i : S8192x1024.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v12).slice (win2_3.rect t)).set ↔ _
  rw [View.set_slice_whole, Rect.mem_set_unit]
  exact Iff.rfl

/-- The eight row blocks cover the output array. -/
theorem cover2 (i : S8192x1024.Idx) : ∃ t : Fin cfg2.N, (cfg2.win 3).flush t = true ∧ i ∈ ((cfg2.win 3).blk t).view.set := by
  have hi0 : (i 0).val < 8192 := (i 0).isLt
  have hi1 : (i 1).val < 1024 := (i 1).isLt
  obtain ⟨t, ht⟩ := idx_onto2 ⟨(i 0).val / 1024, by omega⟩
  have q0 : win2_3.index t (0 : Fin 2) = (i 0).val / 1024 := ht
  obtain ⟨e0, e1, e2, e3, e4, e5, e6, e7⟩ := idx_facts2 t
  refine ⟨t, flush2_3 t, ?_⟩
  rw [mem_blk2]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1024 ≤ (i 1).val ∧ (i 1).val < win2_3.index t (1 : Fin 2) * 1024 + 1024; omega

/-- The output array after the region: the linear layer of the arrays the region finds. -/
theorem final2 (c : Dev nD) : (dat2 V c).arrAt 3 cfg2.N = linOut (V c main_v2) (V c main_v5) (V c main_v11) :=
  (dat2 V c).arrAt_eq_of_cover 3 _ (fun t _ => flushed2 V c t) (cover2)

/-! ## Region 4: rows of `main_v25` against `main_v6`, bias `main_v26`, into `main_v27` -/

theorem idx_facts4 : ∀ t : Fin cfg4.N, win4_0.index t (0 : Fin 2) = win4_3.index t (0 : Fin 2) ∧ win4_0.index t (1 : Fin 2) = 0
    ∧ win4_1.index t (0 : Fin 2) = 0 ∧ win4_1.index t (1 : Fin 2) = 0 ∧ win4_2.index t (0 : Fin 2) = 0 ∧ win4_2.index t (1 : Fin 2) = 0
    ∧ win4_3.index t (1 : Fin 2) = 0 ∧ win4_3.index t (0 : Fin 2) ≤ 7 :=
  (by decide +kernel : ∀ t : Fin grid4.N, _)

/-- Every one of the eight row blocks is some point's. -/
theorem idx_onto4 : ∀ q : Fin 8, ∃ t : Fin cfg4.N, win4_3.index t (0 : Fin 2) = q.val :=
  (by decide +kernel : ∀ q : Fin 8, ∃ t : Fin grid4.N, win4_3.index t (0 : Fin 2) = q.val)

/-- What point `t` writes back is block `t` of the linear layer of the arrays the region finds. -/
theorem flushed4 (c : Dev nD) (t : Fin cfg4.N) :
    (dat4 V c).flushed 3 t = ((cfg4.win 3).blk t).view.read (Elt Ideal) (linOut (V c main_v25) (V c main_v6) (V c main_v26)) := by
  show (cfg4.win 3).cut (grid4.coords t) ((dat4 V c).after 3 t) = _
  rw [after4_3]
  unfold out4_3
  rw [View.canon_unit_zero hz2]
  simp only [View.ld_unit_zero (S := S1024x1024) hz2, View.ld_unit_zero (S := S1x1024) hz2]
  obtain ⟨e0, e1, e2, e3, e4, e5, e6, e7⟩ := idx_facts4 t
  funext j
  show k4_pay1 (iblk4 V c 0 t) (iblk4 V c 1 t) (iblk4 V c 2 t) j = linOut (V c main_v25) (V c main_v6) (V c main_v26) (((cfg4.win 3).blk t).view.emb j)
  refine (lin_point4 _ _ _ j).trans ?_
  unfold linOut
  refine congrArg₂ (· + ·) (Finset.sum_congr rfl fun d _ => congrArg₂ (· * ·) ?_ ?_) ?_
  · show V c main_v25 (((cfg4.win 0).blk t).view.emb (ix2 (j 0) d)) = V c main_v25 _
    refine congrArg (V c main_v25) (funext fun a => Fin.ext ?_)
    match a with
    | ⟨0, _⟩ => show win4_0.index t (0 : Fin 2) * 1024 + 1 * (j 0).val = win4_3.index t (0 : Fin 2) * 1024 + 1 * (j 0).val; omega
    | ⟨1, _⟩ => show win4_0.index t (1 : Fin 2) * 1024 + 1 * d.val = d.val; omega
  · show V c main_v6 (((cfg4.win 1).blk t).view.emb (ix2 d (j 1))) = V c main_v6 _
    refine congrArg (V c main_v6) (funext fun a => Fin.ext ?_)
    match a with
    | ⟨0, _⟩ => show win4_1.index t (0 : Fin 2) * 1024 + 1 * d.val = d.val; omega
    | ⟨1, _⟩ => show win4_1.index t (1 : Fin 2) * 1024 + 1 * (j 1).val = win4_3.index t (1 : Fin 2) * 1024 + 1 * (j 1).val; omega
  · show V c main_v26 (((cfg4.win 2).blk t).view.emb (ix2 (0 : Fin 1) (j 1))) = V c main_v26 _
    refine congrArg (V c main_v26) (funext fun a => Fin.ext ?_)
    match a with
    | ⟨0, _⟩ => show win4_2.index t (0 : Fin 2) * 1 + 1 * 0 = 0; omega
    | ⟨1, _⟩ => show win4_2.index t (1 : Fin 2) * 1024 + 1 * (j 1).val = win4_3.index t (1 : Fin 2) * 1024 + 1 * (j 1).val; omega

/-- An index of the output array is in point `t`'s block iff each coordinate is in the block's range. -/
theorem mem_blk4 (t : Fin cfg4.N) (i : S8192x1024.Idx) :
    i ∈ ((cfg4.win 3).blk t).view.set ↔ ∀ a : Fin 2, win4_3.index t a * S1024x1024.size a ≤ (i a).val ∧ (i a).val < win4_3.index t a * S1024x1024.size a + S1024x1024.size a := by
  show i ∈ ((View.whole main_v27).slice (win4_3.rect t)).set ↔ _
  rw [View.set_slice_whole, Rect.mem_set_unit]
  exact Iff.rfl

/-- The eight row blocks cover the output array. -/
theorem cover4 (i : S8192x1024.Idx) : ∃ t : Fin cfg4.N, (cfg4.win 3).flush t = true ∧ i ∈ ((cfg4.win 3).blk t).view.set := by
  have hi0 : (i 0).val < 8192 := (i 0).isLt
  have hi1 : (i 1).val < 1024 := (i 1).isLt
  obtain ⟨t, ht⟩ := idx_onto4 ⟨(i 0).val / 1024, by omega⟩
  have q0 : win4_3.index t (0 : Fin 2) = (i 0).val / 1024 := ht
  obtain ⟨e0, e1, e2, e3, e4, e5, e6, e7⟩ := idx_facts4 t
  refine ⟨t, flush4_3 t, ?_⟩
  rw [mem_blk4]
  intro a
  match a with
  | ⟨0, _⟩ => show win4_3.index t (0 : Fin 2) * 1024 ≤ (i 0).val ∧ (i 0).val < win4_3.index t (0 : Fin 2) * 1024 + 1024; omega
  | ⟨1, _⟩ => show win4_3.index t (1 : Fin 2) * 1024 ≤ (i 1).val ∧ (i 1).val < win4_3.index t (1 : Fin 2) * 1024 + 1024; omega

/-- The output array after the region: the linear layer of the arrays the region finds. -/
theorem final4 (c : Dev nD) : (dat4 V c).arrAt 3 cfg4.N = linOut (V c main_v25) (V c main_v6) (V c main_v26) :=
  (dat4 V c).arrAt_eq_of_cover 3 _ (fun t _ => flushed4 V c t) (cover4)

end Cert.KernelIdeal.Linear

end
-- ==== Proof.AttentionRegion.lean ====
/-
  The attention region as one function of the arrays it finds.

  The grid is 64 (batch, head) pairs by two halves of the 2048 query rows.  At a point the body loads 1024 query
  rows of its pair and ALL 2048 key and value rows of the pair, so a written-back entry depends on its own
  query row and on every key and value row of the pair: it is that row's attention output.  The key and value
  blocks move with the pair only, the query block moves with the output block, so what a point writes back is
  the block of one whole-array function, `attnOut`; the 128 blocks tile the output.
-/
import proofs.«161808_j84293028151875_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«161808_j84293028151875_2_alg».proof.Proof.Attention
import proofs.«161808_j84293028151875_2_alg».proof.Proof.KernelPayload
set_option maxRecDepth 16384

noncomputable section

namespace Cert.KernelIdeal.AttnRegion

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz3 : (![0, 0, 0] : Fin 3 → Nat) = fun _ => 0 := funext fun a => by fin_cases a <;> rfl

/-- Attention over the 64 (batch, head) pairs laid out as 64 x 2048 x 64 arrays: entry `(g, s, j)` is coordinate `j` of
    query row `s` of pair `g`, the weighted value rows summed and then divided by the total weight. -/
def attnOut (q k v : S64x2048x64.Idx → EReal) : S64x2048x64.Idx → EReal := fun i =>
  Cert.Attention.attnSumThenDivide
    (fun s j => q (ix3 (⟨(i 0).val, (i 0).isLt⟩ : Fin 64) s j))
    (fun t j => k (ix3 (⟨(i 0).val, (i 0).isLt⟩ : Fin 64) t j))
    (fun t j => v (ix3 (⟨(i 0).val, (i 0).isLt⟩ : Fin 64) t j))
    (⟨(i 1).val, (i 1).isLt⟩ : Fin 2048) (⟨(i 2).val, (i 2).isLt⟩ : Fin 64)

/-- The attention body's arithmetic at an entry of its block: that query row's attention output. -/
theorem attn_point (q : Vec Ideal S1x1024x64 .bf16) (k v : Vec Ideal S1x2048x64 .bf16) (q' : Fin 2048 → Fin 64 → EReal)
    (s' : Fin 2048) (y : S1x1024x64.Idx) (hq : ∀ j : Fin 64, q' s' j = q (ix3 (0 : Fin 1) (y 1) j)) :
    k3_pay1 (F := Ideal) q k v y
      = Cert.Attention.attnSumThenDivide q' (fun t j => k (ix3 (0 : Fin 1) t j)) (fun t j => v (ix3 (0 : Fin 1) t j)) s' (y 2) :=
  Cert.KernelIdeal.Payload.k3_pay1_apply q k v q' s' y hq

theorem idx_facts3 : ∀ t : Fin cfg3.N,
    win3_0.index t (0 : Fin 3) = win3_3.index t (0 : Fin 3) ∧ win3_0.index t (1 : Fin 3) = win3_3.index t (1 : Fin 3) ∧ win3_0.index t (2 : Fin 3) = 0
    ∧ win3_1.index t (0 : Fin 3) = win3_3.index t (0 : Fin 3) ∧ win3_1.index t (1 : Fin 3) = 0 ∧ win3_1.index t (2 : Fin 3) = 0
    ∧ win3_2.index t (0 : Fin 3) = win3_3.index t (0 : Fin 3) ∧ win3_2.index t (1 : Fin 3) = 0 ∧ win3_2.index t (2 : Fin 3) = 0
    ∧ win3_3.index t (2 : Fin 3) = 0 ∧ win3_3.index t (0 : Fin 3) ≤ 63 ∧ win3_3.index t (1 : Fin 3) ≤ 1 :=
  (by decide +kernel : ∀ t : Fin grid3.N, _)

/-- Every (pair, half of the query rows) is some point's block. -/
theorem idx_onto3 : ∀ (g : Fin 64) (h : Fin 2), ∃ t : Fin cfg3.N, win3_3.index t (0 : Fin 3) = g.val ∧ win3_3.index t (1 : Fin 3) = h.val :=
  (by decide +kernel : ∀ (g : Fin 64) (h : Fin 2), ∃ t : Fin grid3.N, win3_3.index t (0 : Fin 3) = g.val ∧ win3_3.index t (1 : Fin 3) = h.val)

/-- What point `t` writes back is block `t` of the attention of the arrays the region finds. -/
theorem flushed3 (c : Dev nD) (t : Fin cfg3.N) :
    (dat3 V c).flushed 3 t = ((cfg3.win 3).blk t).view.read (Elt Ideal) (attnOut (V c main_v15) (V c main_v18) (V c main_v21)) := by
  show (cfg3.win 3).cut (grid3.coords t) ((dat3 V c).after 3 t) = _
  rw [after3_3]
  unfold out3_3
  rw [View.canon_unit_zero hz3]
  simp only [View.ld_unit_zero (S := S1x1024x64) hz3, View.ld_unit_zero (S := S1x2048x64) hz3]
  obtain ⟨e0, e1, e2, e3, e4, e5, e6, e7, e8, e9, e10, e11⟩ := idx_facts3 t
  funext y
  show k3_pay1 (iblk3 V c 0 t) (iblk3 V c 1 t) (iblk3 V c 2 t) y = attnOut (V c main_v15) (V c main_v18) (V c main_v21) (((cfg3.win 3).blk t).view.emb y)
  have hy1 : (y 1).val < 1024 := (y 1).isLt
  have hy2 : (y 2).val < 64 := (y 2).isLt
  have hy0' : (y 0).val < 1 := (y 0).isLt
  have hy0 : (y 0).val = 0 := by omega
  refine (attn_point (iblk3 V c 0 t) (iblk3 V c 1 t) (iblk3 V c 2 t)
    (fun s j => V c main_v15 (ix3 (⟨win3_3.index t (0 : Fin 3), by omega⟩ : Fin 64) s j))
    (⟨win3_3.index t (1 : Fin 3) * 1024 + (y 1).val, by omega⟩ : Fin 2048) y ?_).trans ?_
  · intro j
    show V c main_v15 _ = V c main_v15 (((cfg3.win 0).blk t).view.emb (ix3 (0 : Fin 1) (y 1) j))
    refine congrArg (V c main_v15) (funext fun a => Fin.ext ?_)
    match a with
    | ⟨0, _⟩ => show win3_3.index t (0 : Fin 3) = win3_0.index t (0 : Fin 3) * 1 + 1 * 0; omega
    | ⟨1, _⟩ => show win3_3.index t (1 : Fin 3) * 1024 + (y 1).val = win3_0.index t (1 : Fin 3) * 1024 + 1 * (y 1).val; omega
    | ⟨2, _⟩ => show j.val = win3_0.index t (2 : Fin 3) * 64 + 1 * j.val; omega
  · unfold attnOut
    have hk : (fun (t' : Fin 2048) (j : Fin 64) => iblk3 V c 1 t (ix3 (0 : Fin 1) t' j))
        = fun t' j => V c main_v18 (ix3 (⟨((((cfg3.win 3).blk t).view.emb y) 0).val, ((((cfg3.win 3).blk t).view.emb y) 0).isLt⟩ : Fin 64) t' j) := by
      funext t' j
      show V c main_v18 (((cfg3.win 1).blk t).view.emb (ix3 (0 : Fin 1) t' j)) = V c main_v18 _
      refine congrArg (V c main_v18) (funext fun a => Fin.ext ?_)
      match a with
      | ⟨0, _⟩ => show win3_1.index t (0 : Fin 3) * 1 + 1 * 0 = win3_3.index t (0 : Fin 3) * 1 + 1 * (y 0).val; omega
      | ⟨1, _⟩ => show win3_1.index t (1 : Fin 3) * 2048 + 1 * t'.val = t'.val; omega
      | ⟨2, _⟩ => show win3_1.index t (2 : Fin 3) * 64 + 1 * j.val = j.val; omega
    have hv : (fun (t' : Fin 2048) (j : Fin 64) => iblk3 V c 2 t (ix3 (0 : Fin 1) t' j))
        = fun t' j => V c main_v21 (ix3 (⟨((((cfg3.win 3).blk t).view.emb y) 0).val, ((((cfg3.win 3).blk t).view.emb y) 0).isLt⟩ : Fin 64) t' j) := by
      funext t' j
      show V c main_v21 (((cfg3.win 2).blk t).view.emb (ix3 (0 : Fin 1) t' j)) = V c main_v21 _
      refine congrArg (V c main_v21) (funext fun a => Fin.ext ?_)
      match a with
      | ⟨0, _⟩ => show win3_2.index t (0 : Fin 3) * 1 + 1 * 0 = win3_3.index t (0 : Fin 3) * 1 + 1 * (y 0).val; omega
      | ⟨1, _⟩ => show win3_2.index t (1 : Fin 3) * 2048 + 1 * t'.val = t'.val; omega
      | ⟨2, _⟩ => show win3_2.index t (2 : Fin 3) * 64 + 1 * j.val = j.val; omega
    have hq : (fun (s : Fin 2048) (j : Fin 64) => V c main_v15 (ix3 (⟨win3_3.index t (0 : Fin 3), by omega⟩ : Fin 64) s j))
        = fun s j => V c main_v15 (ix3 (⟨((((cfg3.win 3).blk t).view.emb y) 0).val, ((((cfg3.win 3).blk t).view.emb y) 0).isLt⟩ : Fin 64) s j) := by
      funext s j
      refine congrArg (V c main_v15) (funext fun a => Fin.ext ?_)
      match a with
      | ⟨0, _⟩ => show win3_3.index t (0 : Fin 3) = win3_3.index t (0 : Fin 3) * 1 + 1 * (y 0).val; omega
      | ⟨1, _⟩ => rfl
      | ⟨2, _⟩ => rfl
    rw [hk, hv, hq]
    refine congrArg₂ (Cert.Attention.attnSumThenDivide _ _ _) (Fin.ext ?_) (Fin.ext ?_)
    · show win3_3.index t (1 : Fin 3) * 1024 + (y 1).val = win3_3.index t (1 : Fin 3) * 1024 + 1 * (y 1).val; omega
    · show (y 2).val = win3_3.index t (2 : Fin 3) * 64 + 1 * (y 2).val; omega

/-- An index of the output array is in point `t`'s block iff each coordinate is in the block's range. -/
theorem mem_blk3 (t : Fin cfg3.N) (i : S64x2048x64.Idx) :
    i ∈ ((cfg3.win 3).blk t).view.set ↔ ∀ a : Fin 3, win3_3.index t a * S1x1024x64.size a ≤ (i a).val ∧ (i a).val < win3_3.index t a * S1x1024x64.size a + S1x1024x64.size a := by
  show i ∈ ((View.whole main_v22).slice (win3_3.rect t)).set ↔ _
  rw [View.set_slice_whole, Rect.mem_set_unit]
  exact Iff.rfl

/-- The 128 blocks cover the output array. -/
theorem cover3 (i : S64x2048x64.Idx) : ∃ t : Fin cfg3.N, (cfg3.win 3).flush t = true ∧ i ∈ ((cfg3.win 3).blk t).view.set := by
  have hi0 : (i 0).val < 64 := (i 0).isLt
  have hi1 : (i 1).val < 2048 := (i 1).isLt
  have hi2 : (i 2).val < 64 := (i 2).isLt
  obtain ⟨t, ht0, ht1⟩ := idx_onto3 ⟨(i 0).val, hi0⟩ ⟨(i 1).val / 1024, by omega⟩
  have q0 : win3_3.index t (0 : Fin 3) = (i 0).val := ht0
  have q1 : win3_3.index t (1 : Fin 3) = (i 1).val / 1024 := ht1
  obtain ⟨e0, e1, e2, e3, e4, e5, e6, e7, e8, e9, e10, e11⟩ := idx_facts3 t
  refine ⟨t, flush3_3 t, ?_⟩
  rw [mem_blk3]
  intro a
  match a with
  | ⟨0, _⟩ => show win3_3.index t (0 : Fin 3) * 1 ≤ (i 0).val ∧ (i 0).val < win3_3.index t (0 : Fin 3) * 1 + 1; omega
  | ⟨1, _⟩ => show win3_3.index t (1 : Fin 3) * 1024 ≤ (i 1).val ∧ (i 1).val < win3_3.index t (1 : Fin 3) * 1024 + 1024; omega
  | ⟨2, _⟩ => show win3_3.index t (2 : Fin 3) * 64 ≤ (i 2).val ∧ (i 2).val < win3_3.index t (2 : Fin 3) * 64 + 64; omega

/-- The output array after the region: attention of the arrays the region finds. -/
theorem final3 (c : Dev nD) : (dat3 V c).arrAt 3 cfg3.N = attnOut (V c main_v15) (V c main_v18) (V c main_v21) :=
  (dat3 V c).arrAt_eq_of_cover 3 _ (fun t _ => flushed3 V c t) (cover3)

end Cert.KernelIdeal.AttnRegion
end
-- ==== Proof.Layout.lean ====
/-
  The layout plumbing between the kernel's regions, read at coordinates.

  Rows are flattened, `(n, s) -> n*2048 + s`; heads are split by viewing the 1024 columns as 16 x 64, moving the
  head axis in front of the position axis and flattening (batch, head) to `n*16 + h`; merged back by the inverse
  moves.  A reshape keeps the row-major position of an entry and a transpose permutes coordinates, so each composite
  reads its operand at explicitly computed coordinates.  Stated for any element type and any witnesses of the
  shape facts.
-/
import proofs.«161808_j84293028151875_2_alg».proof.KernelIdeal
import proofs.«161808_j84293028151875_2_alg».proof.Proof.Attention
import Idealize.ShloMosaic.Lib.Pipeline.Value
import Idealize.ShloMosaic.Lib.ValueIdx

noncomputable section

namespace Cert.KernelIdeal.Layout

open Cert.KernelIdeal Cert.Attention
open Idealize.ShloMosaic Idealize.ShloMosaic.ValueIdx

variable {α : Type}

/-- Row `n*2048 + s` of the flattened 8192 rows. -/
def row (n : Fin 4) (s : Fin 2048) : Fin 8192 := ⟨n.val * 2048 + s.val, by omega⟩
/-- Pair `n*16 + h` of the 64 (batch, head) pairs. -/
def pair (n : Fin 4) (h : Fin 16) : Fin 64 := ⟨n.val * 16 + h.val, by omega⟩

/-- Flattening the rows of a 4 x 2048 x 1024 array. -/
theorem flatten_apply (x : S4x2048x1024.Idx → α) (h : S4x2048x1024.ShapeCasts S8192x1024) (n : Fin 4) (s : Fin 2048) (d : Fin 1024) :
    shapeCast S8192x1024 x h (ix2 (row n s) d) = x (ix3 n s d) :=
  shapeCast_apply x h _ _ (by rw [Shape.rowMajor_val_three, Shape.rowMajor_val_two]; rfl)

/-- The inverse: rows unflattened. -/
theorem unflatten_apply (x : S8192x1024.Idx → α) (h : S8192x1024.ShapeCasts S4x2048x1024) (n : Fin 4) (s : Fin 2048) (d : Fin 1024) :
    shapeCast S4x2048x1024 x h (ix3 n s d) = x (ix2 (row n s) d) :=
  shapeCast_apply x h _ _ (by rw [Shape.rowMajor_val_three, Shape.rowMajor_val_two]; rfl)

/-- A transposed square matrix. -/
theorem transpose_square_apply (x : S1024x1024.Idx → α) (h : S1024x1024.Transposes [1, 0] S1024x1024) (d e : Fin 1024) :
    transpose S1024x1024 [1, 0] x h (ix2 d e) = x (ix2 e d) :=
  transpose_apply [1, 0] x h _ _ (fun b => by match b with | ⟨0, _⟩ => rfl | ⟨1, _⟩ => rfl)

/-- A vector viewed as a one-row matrix. -/
theorem as_row_apply (x : S1024.Idx → α) (h : S1024.ShapeCasts S1x1024) (e : Fin 1024) :
    shapeCast S1x1024 x h (ix2 (0 : Fin 1) e) = x (ix1 e) :=
  shapeCast_apply x h _ _ (by rw [Shape.rowMajor_val_one, Shape.rowMajor_val_two]; show e.val = 0 * 1024 + e.val; omega)

/-- Splitting heads: entry `(n*16 + h, s, j)` of the split array is entry `(n*2048 + s, h*64 + j)` of the flat one. -/
theorem split_heads_apply (x : S8192x1024.Idx → α) (h1 : S8192x1024.ShapeCasts S4x2048x16x64)
    (h2 : S4x2048x16x64.Transposes [0, 2, 1, 3] S4x16x2048x64) (h3 : S4x16x2048x64.ShapeCasts S64x2048x64)
    (n : Fin 4) (hd : Fin 16) (s : Fin 2048) (j : Fin 64) :
    shapeCast S64x2048x64 (transpose S4x16x2048x64 [0, 2, 1, 3] (shapeCast S4x2048x16x64 x h1) h2) h3 (ix3 (pair n hd) s j)
      = x (ix2 (row n s) (col hd j)) := by
  rw [shapeCast_apply _ h3 _ (ix4 n hd s j) (by rw [Shape.rowMajor_val_four, Shape.rowMajor_val_three]; rfl)]
  rw [transpose_apply [0, 2, 1, 3] _ h2 _ (ix4 n s hd j) (fun b => by match b with | ⟨0, _⟩ => rfl | ⟨1, _⟩ => rfl | ⟨2, _⟩ => rfl | ⟨3, _⟩ => rfl)]
  exact shapeCast_apply x h1 _ _ (by
    rw [Shape.rowMajor_val_two, Shape.rowMajor_val_four]
    show (n.val * 2048 + s.val) * 1024 + (hd.val * 64 + j.val) = ((n.val * 2048 + s.val) * 16 + hd.val) * 64 + j.val
    omega)

/-- Merging heads: entry `(n*2048 + s, d)` of the merged array is entry `(n*16 + d/64, s, d%64)` of the split one. -/
theorem merge_heads_apply (x : S64x2048x64.Idx → α) (h1 : S64x2048x64.ShapeCasts S4x16x2048x64)
    (h2 : S4x16x2048x64.Transposes [0, 2, 1, 3] S4x2048x16x64) (h3 : S4x2048x16x64.ShapeCasts S8192x1024)
    (n : Fin 4) (s : Fin 2048) (d : Fin 1024) :
    shapeCast S8192x1024 (transpose S4x2048x16x64 [0, 2, 1, 3] (shapeCast S4x16x2048x64 x h1) h2) h3 (ix2 (row n s) d)
      = x (ix3 (pair n (headOf d)) s (laneOf d)) := by
  rw [shapeCast_apply _ h3 _ (ix4 n s (headOf d) (laneOf d)) (by
    rw [Shape.rowMajor_val_four, Shape.rowMajor_val_two]
    show ((n.val * 2048 + s.val) * 16 + d.val / 64) * 64 + d.val % 64 = (n.val * 2048 + s.val) * 1024 + d.val
    omega)]
  rw [transpose_apply [0, 2, 1, 3] _ h2 _ (ix4 n (headOf d) s (laneOf d)) (fun b => by match b with | ⟨0, _⟩ => rfl | ⟨1, _⟩ => rfl | ⟨2, _⟩ => rfl | ⟨3, _⟩ => rfl)]
  exact shapeCast_apply x h1 _ _ (by rw [Shape.rowMajor_val_three, Shape.rowMajor_val_four]; rfl)

end Cert.KernelIdeal.Layout

end
-- ==== Proof.KernelValue.lean ====
/-
  The kernel's result as multi-head attention of its arguments.

  Each region's entry contents are walked back through the program: a buffer a host stretch does not write
  keeps its contents across the stretch, a buffer that is not one of a region's arrays keeps its contents
  across the region, an output array of a region holds the region's function of what the region found.  So
  the three input projections are linear layers of the flattened arguments and transposed weights, the
  attention region sees their heads split, its output is merged and fed to the last linear layer, and the
  result is the unflattened output.  Read at coordinates (n, s, e) this is the sum-then-divide spelling of
  multi-head attention of the argument arrays.
-/
import proofs.«161808_j84293028151875_2_alg».proof.Proof.KernelRun
import proofs.«161808_j84293028151875_2_alg».proof.Proof.LinearRegions
import proofs.«161808_j84293028151875_2_alg».proof.Proof.AttentionRegion
import proofs.«161808_j84293028151875_2_alg».proof.Proof.Layout
import Idealize.ShloMosaic.Lib.StableHlo.Run

set_option maxRecDepth 16384

noncomputable section

namespace Cert.KernelIdeal.Boundary

open Cert.KernelIdeal Cert.KernelIdeal.Gen Cert.KernelIdeal.Linear Cert.KernelIdeal.AttnRegion Cert.KernelIdeal.Layout Cert.Attention
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-- An argument array as a function of its three coordinates. -/
abbrev cur3 (x : S4x2048x1024.Idx → EReal) : Fin 4 → Fin 2048 → Fin 1024 → EReal := fun n s d => x (ix3 n s d)
/-- A weight matrix as a function of its two coordinates. -/
abbrev cur2 (x : S1024x1024.Idx → EReal) : Fin 1024 → Fin 1024 → EReal := fun e d => x (ix2 e d)
/-- A bias vector as a function of its coordinate. -/
abbrev cur1 (x : S1024.Idx → EReal) : Fin 1024 → EReal := fun e => x (ix1 e)

/-- A linear layer read at a row and a column. -/
theorem linOut_apply (x : S8192x1024.Idx → EReal) (w : S1024x1024.Idx → EReal) (b : S1x1024.Idx → EReal) (r : Fin 8192) (e : Fin 1024) :
    linOut x w b (ix2 r e) = (∑ d : Fin 1024, x (ix2 r d) * w (ix2 d e)) + b (ix2 (0 : Fin 1) e) := rfl

/-! ## What each linear region finds -/

theorem V1_v0 (c : Dev nD) : V1 m ρ c main_v0 = shapeCast S8192x1024 (m ((c : Thread nD τ).loc main_arg0)) shapeCasts_S4x2048x1024_S8192x1024 := by
  dsimp only [V1, W1, hostOps0]; after_results
  try rfl

theorem V1_v3 (c : Dev nD) : V1 m ρ c main_v3 = transpose S1024x1024 [1, 0] (m ((c : Thread nD τ).loc main_arg3)) transposes_S1024x1024_S1024x1024_1_0 := by
  dsimp only [V1, W1, hostOps0]; after_results
  try rfl

theorem V1_v7 (c : Dev nD) : V1 m ρ c main_v7 = shapeCast S1x1024 (m ((c : Thread nD τ).loc main_arg4)) shapeCasts_S1024_S1x1024 := by
  dsimp only [V1, W1, hostOps0]; after_results
  try rfl

theorem V3_v1 (c : Dev nD) : V3 m ρ c main_v1 = shapeCast S8192x1024 (m ((c : Thread nD τ).loc main_arg1)) shapeCasts_S4x2048x1024_S8192x1024 := by
  dsimp only [V3, W3, hostOps1]; after_results
  rw [W2_of_ne m ρ c main_v1 (by decide)]
  dsimp only [W1, hostOps0]; after_results
  try rfl

theorem V3_v4 (c : Dev nD) : V3 m ρ c main_v4 = transpose S1024x1024 [1, 0] (m ((c : Thread nD τ).loc main_arg5)) transposes_S1024x1024_S1024x1024_1_0 := by
  dsimp only [V3, W3, hostOps1]; after_results
  rw [W2_of_ne m ρ c main_v4 (by decide)]
  dsimp only [W1, hostOps0]; after_results
  try rfl

theorem V3_v9 (c : Dev nD) : V3 m ρ c main_v9 = shapeCast S1x1024 (m ((c : Thread nD τ).loc main_arg6)) shapeCasts_S1024_S1x1024 := by
  dsimp only [V3, W3, hostOps1]; after_results
  rw [W2_of_ne m ρ c main_arg6 (by decide)]
  dsimp only [W1, hostOps0]; after_results
  try rfl

theorem V5_v2 (c : Dev nD) : V5 m ρ c main_v2 = shapeCast S8192x1024 (m ((c : Thread nD τ).loc main_arg2)) shapeCasts_S4x2048x1024_S8192x1024 := by
  dsimp only [V5, W5, hostOps2]; after_results
  rw [W4_of_ne m ρ c main_v2 (by decide)]
  dsimp only [W3, hostOps1]; after_results
  rw [W2_of_ne m ρ c main_v2 (by decide)]
  dsimp only [W1, hostOps0]; after_results
  try rfl

theorem V5_v5 (c : Dev nD) : V5 m ρ c main_v5 = transpose S1024x1024 [1, 0] (m ((c : Thread nD τ).loc main_arg7)) transposes_S1024x1024_S1024x1024_1_0 := by
  dsimp only [V5, W5, hostOps2]; after_results
  rw [W4_of_ne m ρ c main_v5 (by decide)]
  dsimp only [W3, hostOps1]; after_results
  rw [W2_of_ne m ρ c main_v5 (by decide)]
  dsimp only [W1, hostOps0]; after_results
  try rfl

theorem V5_v11 (c : Dev nD) : V5 m ρ c main_v11 = shapeCast S1x1024 (m ((c : Thread nD τ).loc main_arg8)) shapeCasts_S1024_S1x1024 := by
  dsimp only [V5, W5, hostOps2]; after_results
  rw [W4_of_ne m ρ c main_arg8 (by decide)]
  dsimp only [W3, hostOps1]; after_results
  rw [W2_of_ne m ρ c main_arg8 (by decide)]
  dsimp only [W1, hostOps0]; after_results
  try rfl

theorem V9_v6 (c : Dev nD) : V9 m ρ c main_v6 = transpose S1024x1024 [1, 0] (m ((c : Thread nD τ).loc main_arg9)) transposes_S1024x1024_S1024x1024_1_0 := by
  dsimp only [V9, W9, hostOps4]; after_results
  rw [W8_of_ne m ρ c main_v6 (by decide)]
  dsimp only [W7, hostOps3]; after_results
  rw [W6_of_ne m ρ c main_v6 (by decide)]
  dsimp only [W5, hostOps2]; after_results
  rw [W4_of_ne m ρ c main_v6 (by decide)]
  dsimp only [W3, hostOps1]; after_results
  rw [W2_of_ne m ρ c main_v6 (by decide)]
  dsimp only [W1, hostOps0]; after_results
  try rfl

theorem V9_v26 (c : Dev nD) : V9 m ρ c main_v26 = shapeCast S1x1024 (m ((c : Thread nD τ).loc main_arg10)) shapeCasts_S1024_S1x1024 := by
  dsimp only [V9, W9, hostOps4]; after_results
  rw [W8_of_ne m ρ c main_arg10 (by decide)]
  dsimp only [W7, hostOps3]; after_results
  rw [W6_of_ne m ρ c main_arg10 (by decide)]
  dsimp only [W5, hostOps2]; after_results
  rw [W4_of_ne m ρ c main_arg10 (by decide)]
  dsimp only [W3, hostOps1]; after_results
  rw [W2_of_ne m ρ c main_arg10 (by decide)]
  dsimp only [W1, hostOps0]; after_results
  try rfl

/-! ## The three projections, flat -/

/-- The query projection on flattened rows: what the first region leaves. -/
abbrev projQ (c : Dev nD) : S8192x1024.Idx → EReal := linOut (V1 m ρ c main_v0) (V1 m ρ c main_v3) (V1 m ρ c main_v7)
/-- The key projection: what the second region leaves. -/
abbrev projK (c : Dev nD) : S8192x1024.Idx → EReal := linOut (V3 m ρ c main_v1) (V3 m ρ c main_v4) (V3 m ρ c main_v9)
/-- The value projection: what the third region leaves. -/
abbrev projV (c : Dev nD) : S8192x1024.Idx → EReal := linOut (V5 m ρ c main_v2) (V5 m ρ c main_v5) (V5 m ρ c main_v11)

theorem W6_v8 (c : Dev nD) : W6 m ρ c (Proc.devRef .tc main_v8) = projQ m ρ c := by
  rw [W6_of_ne m ρ c main_v8 (by decide)]
  dsimp only [W5, hostOps2]; after_results
  rw [W4_of_ne m ρ c main_v8 (by decide)]
  dsimp only [W3, hostOps1]; after_results
  exact (W2_arr m ρ c 3).trans (final0 (V1 m ρ) c)

theorem W6_v10 (c : Dev nD) : W6 m ρ c (Proc.devRef .tc main_v10) = projK m ρ c := by
  rw [W6_of_ne m ρ c main_v10 (by decide)]
  dsimp only [W5, hostOps2]; after_results
  exact (W4_arr m ρ c 3).trans (final1 (V3 m ρ) c)

theorem W6_v12 (c : Dev nD) : W6 m ρ c (Proc.devRef .tc main_v12) = projV m ρ c :=
  (W6_arr m ρ c 3).trans (final2 (V5 m ρ) c)

theorem projQ_apply (c : Dev nD) (n : Fin 4) (s : Fin 2048) (e : Fin 1024) :
    projQ m ρ c (ix2 (row n s) e) = proj (cur3 (m ((c : Thread nD τ).loc main_arg0))) (cur2 (m ((c : Thread nD τ).loc main_arg3))) (cur1 (m ((c : Thread nD τ).loc main_arg4))) n s e := by
  refine (linOut_apply (V1 m ρ c main_v0) (V1 m ρ c main_v3) (V1 m ρ c main_v7) (row n s) e).trans ?_
  rw [V1_v0, V1_v3, V1_v7]
  exact congrArg₂ (· + ·) (Finset.sum_congr rfl fun d _ => congrArg₂ (· * ·) (flatten_apply _ _ n s d) (transpose_square_apply _ _ d e)) (as_row_apply _ _ e)

theorem projK_apply (c : Dev nD) (n : Fin 4) (s : Fin 2048) (e : Fin 1024) :
    projK m ρ c (ix2 (row n s) e) = proj (cur3 (m ((c : Thread nD τ).loc main_arg1))) (cur2 (m ((c : Thread nD τ).loc main_arg5))) (cur1 (m ((c : Thread nD τ).loc main_arg6))) n s e := by
  refine (linOut_apply (V3 m ρ c main_v1) (V3 m ρ c main_v4) (V3 m ρ c main_v9) (row n s) e).trans ?_
  rw [V3_v1, V3_v4, V3_v9]
  exact congrArg₂ (· + ·) (Finset.sum_congr rfl fun d _ => congrArg₂ (· * ·) (flatten_apply _ _ n s d) (transpose_square_apply _ _ d e)) (as_row_apply _ _ e)

theorem projV_apply (c : Dev nD) (n : Fin 4) (s : Fin 2048) (e : Fin 1024) :
    projV m ρ c (ix2 (row n s) e) = proj (cur3 (m ((c : Thread nD τ).loc main_arg2))) (cur2 (m ((c : Thread nD τ).loc main_arg7))) (cur1 (m ((c : Thread nD τ).loc main_arg8))) n s e := by
  refine (linOut_apply (V5 m ρ c main_v2) (V5 m ρ c main_v5) (V5 m ρ c main_v11) (row n s) e).trans ?_
  rw [V5_v2, V5_v5, V5_v11]
  exact congrArg₂ (· + ·) (Finset.sum_congr rfl fun d _ => congrArg₂ (· * ·) (flatten_apply _ _ n s d) (transpose_square_apply _ _ d e)) (as_row_apply _ _ e)

/-! ## What the attention region finds: the projections' heads -/

theorem V7_v15 (c : Dev nD) : V7 m ρ c main_v15 = shapeCast S64x2048x64 (transpose S4x16x2048x64 [0, 2, 1, 3] (shapeCast S4x2048x16x64 (projQ m ρ c) shapeCasts_S8192x1024_S4x2048x16x64) transposes_S4x2048x16x64_S4x16x2048x64_0_2_1_3) shapeCasts_S4x16x2048x64_S64x2048x64 := by
  dsimp only [V7, W7, hostOps3]; after_results
  rw [W6_v8]
  try rfl

theorem V7_v18 (c : Dev nD) : V7 m ρ c main_v18 = shapeCast S64x2048x64 (transpose S4x16x2048x64 [0, 2, 1, 3] (shapeCast S4x2048x16x64 (projK m ρ c) shapeCasts_S8192x1024_S4x2048x16x64) transposes_S4x2048x16x64_S4x16x2048x64_0_2_1_3) shapeCasts_S4x16x2048x64_S64x2048x64 := by
  dsimp only [V7, W7, hostOps3]; after_results
  rw [W6_v10]
  try rfl

theorem V7_v21 (c : Dev nD) : V7 m ρ c main_v21 = shapeCast S64x2048x64 (transpose S4x16x2048x64 [0, 2, 1, 3] (shapeCast S4x2048x16x64 (projV m ρ c) shapeCasts_S8192x1024_S4x2048x16x64) transposes_S4x2048x16x64_S4x16x2048x64_0_2_1_3) shapeCasts_S4x16x2048x64_S64x2048x64 := by
  dsimp only [V7, W7, hostOps3]; after_results
  rw [W6_v12]
  try rfl

theorem V7_v15_apply (c : Dev nD) (n : Fin 4) (hd : Fin 16) (s : Fin 2048) (j : Fin 64) :
    V7 m ρ c main_v15 (ix3 (pair n hd) s j) = head (proj (cur3 (m ((c : Thread nD τ).loc main_arg0))) (cur2 (m ((c : Thread nD τ).loc main_arg3))) (cur1 (m ((c : Thread nD τ).loc main_arg4)))) n hd s j := by
  rw [V7_v15]
  exact (split_heads_apply _ _ _ _ n hd s j).trans (projQ_apply m ρ c n s (col hd j))

theorem V7_v18_apply (c : Dev nD) (n : Fin 4) (hd : Fin 16) (s : Fin 2048) (j : Fin 64) :
    V7 m ρ c main_v18 (ix3 (pair n hd) s j) = head (proj (cur3 (m ((c : Thread nD τ).loc main_arg1))) (cur2 (m ((c : Thread nD τ).loc main_arg5))) (cur1 (m ((c : Thread nD τ).loc main_arg6)))) n hd s j := by
  rw [V7_v18]
  exact (split_heads_apply _ _ _ _ n hd s j).trans (projK_apply m ρ c n s (col hd j))

theorem V7_v21_apply (c : Dev nD) (n : Fin 4) (hd : Fin 16) (s : Fin 2048) (j : Fin 64) :
    V7 m ρ c main_v21 (ix3 (pair n hd) s j) = head (proj (cur3 (m ((c : Thread nD τ).loc main_arg2))) (cur2 (m ((c : Thread nD τ).loc main_arg7))) (cur1 (m ((c : Thread nD τ).loc main_arg8)))) n hd s j := by
  rw [V7_v21]
  exact (split_heads_apply _ _ _ _ n hd s j).trans (projV_apply m ρ c n s (col hd j))

/-! ## The attention output, and what the last region finds -/

/-- The attention of the projections' heads, per (batch, head) pair: what the fourth region leaves. -/
abbrev attended (c : Dev nD) : S64x2048x64.Idx → EReal := attnOut (V7 m ρ c main_v15) (V7 m ρ c main_v18) (V7 m ρ c main_v21)

theorem attended_apply (c : Dev nD) (n : Fin 4) (hd : Fin 16) (s : Fin 2048) (j : Fin 64) :
    attended m ρ c (ix3 (pair n hd) s j)
      = attnSumThenDivide (head (proj (cur3 (m ((c : Thread nD τ).loc main_arg0))) (cur2 (m ((c : Thread nD τ).loc main_arg3))) (cur1 (m ((c : Thread nD τ).loc main_arg4)))) n hd) (head (proj (cur3 (m ((c : Thread nD τ).loc main_arg1))) (cur2 (m ((c : Thread nD τ).loc main_arg5))) (cur1 (m ((c : Thread nD τ).loc main_arg6)))) n hd)
          (head (proj (cur3 (m ((c : Thread nD τ).loc main_arg2))) (cur2 (m ((c : Thread nD τ).loc main_arg7))) (cur1 (m ((c : Thread nD τ).loc main_arg8)))) n hd) s j := by
  show attnSumThenDivide (fun s j => V7 m ρ c main_v15 (ix3 (pair n hd) s j)) (fun t j => V7 m ρ c main_v18 (ix3 (pair n hd) t j))
      (fun t j => V7 m ρ c main_v21 (ix3 (pair n hd) t j)) s j = _
  have hq : (fun s j => V7 m ρ c main_v15 (ix3 (pair n hd) s j)) = head (proj (cur3 (m ((c : Thread nD τ).loc main_arg0))) (cur2 (m ((c : Thread nD τ).loc main_arg3))) (cur1 (m ((c : Thread nD τ).loc main_arg4)))) n hd :=
    funext fun s => funext fun j => V7_v15_apply m ρ c n hd s j
  have hk : (fun t j => V7 m ρ c main_v18 (ix3 (pair n hd) t j)) = head (proj (cur3 (m ((c : Thread nD τ).loc main_arg1))) (cur2 (m ((c : Thread nD τ).loc main_arg5))) (cur1 (m ((c : Thread nD τ).loc main_arg6)))) n hd :=
    funext fun s => funext fun j => V7_v18_apply m ρ c n hd s j
  have hv : (fun t j => V7 m ρ c main_v21 (ix3 (pair n hd) t j)) = head (proj (cur3 (m ((c : Thread nD τ).loc main_arg2))) (cur2 (m ((c : Thread nD τ).loc main_arg7))) (cur1 (m ((c : Thread nD τ).loc main_arg8)))) n hd :=
    funext fun s => funext fun j => V7_v21_apply m ρ c n hd s j
  rw [hq, hk, hv]

theorem V9_v25 (c : Dev nD) : V9 m ρ c main_v25 = shapeCast S8192x1024 (transpose S4x2048x16x64 [0, 2, 1, 3] (shapeCast S4x16x2048x64 (attended m ρ c) shapeCasts_S64x2048x64_S4x16x2048x64) transposes_S4x16x2048x64_S4x2048x16x64_0_2_1_3) shapeCasts_S4x2048x16x64_S8192x1024 := by
  dsimp only [V9, W9, hostOps4]; after_results
  rw [show W8 m ρ c (Proc.devRef .tc main_v22) = attended m ρ c from (W8_arr m ρ c 3).trans (final3 (V7 m ρ) c)]
  try rfl

theorem V9_v25_apply (c : Dev nD) (n : Fin 4) (s : Fin 2048) (d : Fin 1024) :
    V9 m ρ c main_v25 (ix2 (row n s) d)
      = merge (fun n hd => attnSumThenDivide (head (proj (cur3 (m ((c : Thread nD τ).loc main_arg0))) (cur2 (m ((c : Thread nD τ).loc main_arg3))) (cur1 (m ((c : Thread nD τ).loc main_arg4)))) n hd) (head (proj (cur3 (m ((c : Thread nD τ).loc main_arg1))) (cur2 (m ((c : Thread nD τ).loc main_arg5))) (cur1 (m ((c : Thread nD τ).loc main_arg6)))) n hd)
          (head (proj (cur3 (m ((c : Thread nD τ).loc main_arg2))) (cur2 (m ((c : Thread nD τ).loc main_arg7))) (cur1 (m ((c : Thread nD τ).loc main_arg8)))) n hd)) n s d := by
  rw [V9_v25]
  exact (merge_heads_apply _ _ _ _ n s d).trans (attended_apply m ρ c n (headOf d) s (laneOf d))

/-! ## The result -/

theorem result_eq (c : Dev nD) : Cert.KernelIdeal.Whole.result m ρ c
    = shapeCast S4x2048x1024 (linOut (V9 m ρ c main_v25) (V9 m ρ c main_v6) (V9 m ρ c main_v26)) shapeCasts_S8192x1024_S4x2048x1024 := by
  dsimp only [Cert.KernelIdeal.Whole.result, W11, hostOps5]; after_results
  rw [show W10 m ρ c (Proc.devRef .tc main_v27) = linOut (V9 m ρ c main_v25) (V9 m ρ c main_v6) (V9 m ρ c main_v26) from (W10_arr m ρ c 3).trans (final4 (V9 m ρ) c)]
  try rfl

/-- The kernel's result at coordinates (n, s, e): multi-head attention of the arguments, each head's weighted value rows
    summed and then divided by the total weight. -/
theorem result_apply (c : Dev nD) (n : Fin 4) (s : Fin 2048) (e : Fin 1024) :
    Cert.KernelIdeal.Whole.result m ρ c (ix3 n s e)
      = mhaSumThenDivide (cur3 (m ((c : Thread nD τ).loc main_arg0))) (cur3 (m ((c : Thread nD τ).loc main_arg1))) (cur3 (m ((c : Thread nD τ).loc main_arg2))) (cur2 (m ((c : Thread nD τ).loc main_arg3))) (cur1 (m ((c : Thread nD τ).loc main_arg4))) (cur2 (m ((c : Thread nD τ).loc main_arg5))) (cur1 (m ((c : Thread nD τ).loc main_arg6)))
          (cur2 (m ((c : Thread nD τ).loc main_arg7))) (cur1 (m ((c : Thread nD τ).loc main_arg8))) (cur2 (m ((c : Thread nD τ).loc main_arg9))) (cur1 (m ((c : Thread nD τ).loc main_arg10))) n s e := by
  rw [result_eq, unflatten_apply]
  refine (linOut_apply (V9 m ρ c main_v25) (V9 m ρ c main_v6) (V9 m ρ c main_v26) (row n s) e).trans ?_
  rw [V9_v6, V9_v26]
  exact congrArg₂ (· + ·) (Finset.sum_congr rfl fun d _ => congrArg₂ (· * ·) (V9_v25_apply m ρ c n s d) (transpose_square_apply _ _ d e)) (as_row_apply _ _ e)

end Cert.KernelIdeal.Boundary

end
-- ==== Proof.ReferenceValue.lean ====
/-
  The reference program, read one stage at a time at explicit coordinates, computes multi-head attention in the
  spelling that divides every weight by the total weight before summing the value rows.

  Each stage is identified with the function of coordinates it computes: the three input linear layers, the split of a
  1024-wide row into 16 heads of 64 columns (a reshape followed by a transpose), the scaled dot products, the maximum
  of a row of scores, the exponentiated shifted scores, their total, the quotient, the weighted sum of value rows, the
  heads put back side by side (a transpose followed by a reshape) and the output linear layer.
-/
import proofs.«161808_j84293028151875_2_alg».proof.Proof.Gen.ReferenceIdeal.Read
import proofs.«161808_j84293028151875_2_alg».proof.Proof.Attention

noncomputable section

namespace Cert.ReferenceIdeal.RefValue

open Cert.ReferenceIdeal Cert.ReferenceIdeal.Gen Cert.ReferenceIdeal.Read Idealize.ShloMosaic Idealize.ShloMosaic.ValueIdx

/-- A 4 x 2048 x 1024 array as a function of its three coordinates. -/
abbrev arr (x : (⟨S4x2048x1024, .f32⟩ : BufTy).Contents (Elt Ideal)) : Fin 4 → Fin 2048 → Fin 1024 → EReal :=
  fun n s d => x (ix3 n s d)
/-- A 1024 x 1024 weight matrix as a function of its two coordinates. -/
abbrev mat (w : (⟨S1024x1024, .f32⟩ : BufTy).Contents (Elt Ideal)) : Fin 1024 → Fin 1024 → EReal :=
  fun e d => w (ix2 e d)
/-- A bias vector as a function of its coordinate. -/
abbrev vec (b : (⟨S1024, .f32⟩ : BufTy).Contents (Elt Ideal)) : Fin 1024 → EReal :=
  fun e => b (ix1 e)

/-- A linear layer of an input array, as a function of coordinates. -/
abbrev lin (x : (⟨S4x2048x1024, .f32⟩ : BufTy).Contents (Elt Ideal)) (w : (⟨S1024x1024, .f32⟩ : BufTy).Contents (Elt Ideal))
    (b : (⟨S1024, .f32⟩ : BufTy).Contents (Elt Ideal)) : Fin 4 → Fin 2048 → Fin 1024 → EReal :=
  Attention.proj (arr x) (mat w) (vec b)

/-! ## Index arithmetic of the two reshapes -/

/-- Splitting the width into heads: row-major position `((n*2048 + s)*16 + h)*64 + j` of the four-axis array is
    position `(n, s, h*64 + j)` of the three-axis one. -/
theorem split_pos (n : Fin 4) (h : Fin 16) (s : Fin 2048) (j : Fin 64) :
    idx_main_v4 (idx_main_v5 (ix4 n h s j)) = ix3 n s (Attention.col h j) := by
  funext a; apply Fin.ext
  have hn := n.isLt; have hh := h.isLt; have hs := s.isLt; have hj := j.isLt
  match a with
  | ⟨0, _⟩ => show (((n.val * 2048 + s.val) * 16 + h.val) * 64 + j.val) / 2097152 = n.val; omega
  | ⟨1, _⟩ => show (((n.val * 2048 + s.val) * 16 + h.val) * 64 + j.val) / 1024 % 2048 = s.val; omega
  | ⟨2, _⟩ => show (((n.val * 2048 + s.val) * 16 + h.val) * 64 + j.val) % 1024 = h.val * 64 + j.val; omega

/-- Putting the heads back: row-major position `(n*2048 + s)*1024 + d` of the three-axis array is position
    `(n, s, d / 64, d % 64)` of the four-axis one, read through the transpose at `(n, d / 64, s, d % 64)`. -/
theorem merge_pos (n : Fin 4) (s : Fin 2048) (d : Fin 1024) :
    idx_main_v34 (idx_main_v35 (ix3 n s d)) = ix4 n (Attention.headOf d) s (Attention.laneOf d) := by
  funext a; apply Fin.ext
  have hn := n.isLt; have hs := s.isLt; have hd := d.isLt
  match a with
  | ⟨0, _⟩ => show ((n.val * 2048 + s.val) * 1024 + d.val) / 2097152 = n.val; omega
  | ⟨1, _⟩ => show ((n.val * 2048 + s.val) * 1024 + d.val) / 64 % 16 = d.val / 64; omega
  | ⟨2, _⟩ => show ((n.val * 2048 + s.val) * 1024 + d.val) / 1024 % 2048 = s.val; omega
  | ⟨3, _⟩ => show ((n.val * 2048 + s.val) * 1024 + d.val) % 64 = d.val % 64; omega

/-- The scores array loses its last axis under the two row reductions. -/
theorem reduces_d3 : S4x16x2048x2048.Reduces [3] S4x16x2048 := by decide

/-- Row `(n, h, s)` with key position `t` put back on the dropped axis is `(n, h, s, t)`. -/
theorem lift_d3 (n : Fin 4) (h : Fin 16) (s : Fin 2048) (t : Fin 2048) :
    reduces_d3.lift (ix3 n h s) t = ix4 n h s t := by
  funext c; apply Fin.ext
  match c with
  | ⟨0, _⟩ => rfl
  | ⟨1, _⟩ => rfl
  | ⟨2, _⟩ => rfl
  | ⟨3, _⟩ => rfl

section Stages

variable (x0 x1 x2 : (⟨S4x2048x1024, .f32⟩ : BufTy).Contents (Elt Ideal))
  (x3 : (⟨S1024x1024, .f32⟩ : BufTy).Contents (Elt Ideal)) (x4 : (⟨S1024, .f32⟩ : BufTy).Contents (Elt Ideal))
  (x5 : (⟨S1024x1024, .f32⟩ : BufTy).Contents (Elt Ideal)) (x6 : (⟨S1024, .f32⟩ : BufTy).Contents (Elt Ideal))
  (x7 : (⟨S1024x1024, .f32⟩ : BufTy).Contents (Elt Ideal)) (x8 : (⟨S1024, .f32⟩ : BufTy).Contents (Elt Ideal))
  (x9 : (⟨S1024x1024, .f32⟩ : BufTy).Contents (Elt Ideal)) (x10 : (⟨S1024, .f32⟩ : BufTy).Contents (Elt Ideal))

/-! ## The input linear layers -/

/-- The query projection: the contraction over the model width plus the broadcast bias. -/
theorem proj_q (n : Fin 4) (s : Fin 2048) (e : Fin 1024) :
    val_main_v3 (F := Ideal) x0 x3 x4 (ix3 n s e) = lin x0 x3 x4 n s e := by
  rw [val_main_v3_apply, val_main_v0_apply, val_main_v2_apply, val_main_v1_apply]
  have el : ∀ k : Fin 1024, lidx_main_v0 (ix3 n s e) k = ix3 n s k := fun k => funext fun a => Fin.ext (by
    match a with | ⟨0, _⟩ => rfl | ⟨1, _⟩ => rfl | ⟨2, _⟩ => rfl)
  have er : ∀ k : Fin 1024, ridx_main_v0 (ix3 n s e) k = ix2 e k := fun k => funext fun a => Fin.ext (by
    match a with | ⟨0, _⟩ => rfl | ⟨1, _⟩ => rfl)
  have eb : idx_main_v1 (idx_main_v2 (ix3 n s e)) = ix1 e := funext fun a => Fin.ext (by
    match a with | ⟨0, _⟩ => rfl)
  simp only [el, er, eb, Ideal.addf_def]
  rfl

/-- The key projection. -/
theorem proj_k (n : Fin 4) (s : Fin 2048) (e : Fin 1024) :
    val_main_v9 (F := Ideal) x1 x5 x6 (ix3 n s e) = lin x1 x5 x6 n s e := by
  rw [val_main_v9_apply, val_main_v6_apply, val_main_v8_apply, val_main_v7_apply]
  have el : ∀ k : Fin 1024, lidx_main_v6 (ix3 n s e) k = ix3 n s k := fun k => funext fun a => Fin.ext (by
    match a with | ⟨0, _⟩ => rfl | ⟨1, _⟩ => rfl | ⟨2, _⟩ => rfl)
  have er : ∀ k : Fin 1024, ridx_main_v6 (ix3 n s e) k = ix2 e k := fun k => funext fun a => Fin.ext (by
    match a with | ⟨0, _⟩ => rfl | ⟨1, _⟩ => rfl)
  have eb : idx_main_v7 (idx_main_v8 (ix3 n s e)) = ix1 e := funext fun a => Fin.ext (by
    match a with | ⟨0, _⟩ => rfl)
  simp only [el, er, eb, Ideal.addf_def]
  rfl

/-- The value projection. -/
theorem proj_v (n : Fin 4) (s : Fin 2048) (e : Fin 1024) :
    val_main_v15 (F := Ideal) x2 x7 x8 (ix3 n s e) = lin x2 x7 x8 n s e := by
  rw [val_main_v15_apply, val_main_v12_apply, val_main_v14_apply, val_main_v13_apply]
  have el : ∀ k : Fin 1024, lidx_main_v12 (ix3 n s e) k = ix3 n s k := fun k => funext fun a => Fin.ext (by
    match a with | ⟨0, _⟩ => rfl | ⟨1, _⟩ => rfl | ⟨2, _⟩ => rfl)
  have er : ∀ k : Fin 1024, ridx_main_v12 (ix3 n s e) k = ix2 e k := fun k => funext fun a => Fin.ext (by
    match a with | ⟨0, _⟩ => rfl | ⟨1, _⟩ => rfl)
  have eb : idx_main_v13 (idx_main_v14 (ix3 n s e)) = ix1 e := funext fun a => Fin.ext (by
    match a with | ⟨0, _⟩ => rfl)
  simp only [el, er, eb, Ideal.addf_def]
  rfl

/-! ## The split into heads: a reshape of the width into 16 x 64, then the head axis moved in front of the positions -/

/-- Head `h` of the queries. -/
theorem head_q (n : Fin 4) (h : Fin 16) (s : Fin 2048) (j : Fin 64) :
    val_main_v5 (F := Ideal) x0 x3 x4 (ix4 n h s j) = Attention.head (lin x0 x3 x4) n h s j := by
  rw [val_main_v5_apply, val_main_v4_apply, split_pos, proj_q]
  rfl

/-- Head `h` of the keys. -/
theorem head_k (n : Fin 4) (h : Fin 16) (s : Fin 2048) (j : Fin 64) :
    val_main_v11 (F := Ideal) x1 x5 x6 (ix4 n h s j) = Attention.head (lin x1 x5 x6) n h s j := by
  have e : idx_main_v10 (idx_main_v11 (ix4 n h s j)) = ix3 n s (Attention.col h j) := split_pos n h s j
  rw [val_main_v11_apply, val_main_v10_apply, e, proj_k]
  rfl

/-- Head `h` of the values. -/
theorem head_v (n : Fin 4) (h : Fin 16) (s : Fin 2048) (j : Fin 64) :
    val_main_v17 (F := Ideal) x2 x7 x8 (ix4 n h s j) = Attention.head (lin x2 x7 x8) n h s j := by
  have e : idx_main_v16 (idx_main_v17 (ix4 n h s j)) = ix3 n s (Attention.col h j) := split_pos n h s j
  rw [val_main_v17_apply, val_main_v16_apply, e, proj_v]
  rfl

/-! ## Inside one (batch, head) -/

/-- The scores: the dot product of query row `s` with key row `t`, divided by the square root of the head width. -/
theorem scores (n : Fin 4) (h : Fin 16) (s t : Fin 2048) :
    val_main_v21 (F := Ideal) x0 x1 x3 x4 x5 x6 (ix4 n h s t)
      = Attention.scoreDiv (Attention.head (lin x0 x3 x4) n h) (Attention.head (lin x1 x5 x6) n h) s t := by
  rw [val_main_v21_apply, val_main_v18_apply, val_main_v20_apply, val_main_v19_apply, val_main_cst_apply]
  have el : ∀ k : Fin 64, lidx_main_v18 (ix4 n h s t) k = ix4 n h s k := fun k => funext fun a => Fin.ext (by
    match a with | ⟨0, _⟩ => rfl | ⟨1, _⟩ => rfl | ⟨2, _⟩ => rfl | ⟨3, _⟩ => rfl)
  have er : ∀ k : Fin 64, ridx_main_v18 (ix4 n h s t) k = ix4 n h t k := fun k => funext fun a => Fin.ext (by
    match a with | ⟨0, _⟩ => rfl | ⟨1, _⟩ => rfl | ⟨2, _⟩ => rfl | ⟨3, _⟩ => rfl)
  simp only [el, er, head_q, head_k, Ideal.hostDivf_def, Ideal.hostUnary_sqrt_def, Ideal.ofBits_def]
  rfl

/-- The maximum of a row of scores: the reduction over the key axis is the fold of `max` from minus infinity over
    the key positions. -/
theorem row_max (n : Fin 4) (h : Fin 16) (s : Fin 2048) :
    val_main_v22 (F := Ideal) x0 x1 x3 x4 x5 x6 (ix3 n h s)
      = Attention.rowMax (Attention.scoreDiv (Attention.head (lin x0 x3 x4) n h) (Attention.head (lin x1 x5 x6) n h) s) := by
  have hs := scores x0 x1 x3 x4 x5 x6 n h s
  unfold val_main_v22
  generalize val_main_v21 (F := Ideal) x0 x1 x3 x4 x5 x6 = y at hs ⊢
  refine (Host.reduce_eq_fold_single (α := EReal) (s := S4x16x2048x2048) (t := S4x16x2048) (u := S_)
    (FloatOps.maximumf (F := Ideal) (φ := .f32)) y _ reducesTo_S4x16x2048x2048_S4x16x2048_d3 reduces_d3 h_S_
    (ix3 n h s)).trans ?_
  have hf : (y ∘ reduces_d3.lift (ix3 n h s))
      = Attention.scoreDiv (Attention.head (lin x0 x3 x4) n h) (Attention.head (lin x1 x5 x6) n h) s :=
    funext fun t => (congrArg y (lift_d3 n h s t)).trans (hs t)
  unfold Attention.rowMax
  exact congrArg (fun f => Finset.fold max (Ideal.ofBits .f32 0xFF800000#32) f (Finset.univ : Finset (Fin 2048))) hf

/-- The shift of a row: its maximum taken once more against minus infinity. -/
theorem row_shift (n : Fin 4) (h : Fin 16) (s : Fin 2048) :
    val_main_v24 (F := Ideal) x0 x1 x3 x4 x5 x6 (ix3 n h s)
      = max Attention.negInf
          (Attention.rowMax (Attention.scoreDiv (Attention.head (lin x0 x3 x4) n h) (Attention.head (lin x1 x5 x6) n h) s)) := by
  rw [val_main_v24_apply, val_main_v23_apply, val_main_cst_1_apply, row_max]
  rfl

/-- The weights: the shifted scores, exponentiated. -/
theorem weights (n : Fin 4) (h : Fin 16) (s t : Fin 2048) :
    val_main_v28 (F := Ideal) x0 x1 x3 x4 x5 x6 (ix4 n h s t)
      = Attention.weight (Attention.scoreDiv (Attention.head (lin x0 x3 x4) n h) (Attention.head (lin x1 x5 x6) n h) s)
          (max Attention.negInf
            (Attention.rowMax (Attention.scoreDiv (Attention.head (lin x0 x3 x4) n h) (Attention.head (lin x1 x5 x6) n h) s))) t := by
  rw [val_main_v28_apply, val_main_v27_apply, val_main_v26_apply, val_main_v25_apply]
  have eb : idx_main_v25 (idx_main_v26 (ix4 n h s t)) = ix3 n h s := funext fun a => Fin.ext (by
    match a with | ⟨0, _⟩ => rfl | ⟨1, _⟩ => rfl | ⟨2, _⟩ => rfl)
  rw [eb, row_shift, scores]
  rfl

/-- The total weight of a row, counted from the zero word. -/
theorem total (n : Fin 4) (h : Fin 16) (s : Fin 2048) :
    val_main_v29 (F := Ideal) x0 x1 x3 x4 x5 x6 (ix3 n h s)
      = Attention.zeroWord + ∑ t : Fin 2048,
          Attention.weight (Attention.scoreDiv (Attention.head (lin x0 x3 x4) n h) (Attention.head (lin x1 x5 x6) n h) s)
            (max Attention.negInf
              (Attention.rowMax (Attention.scoreDiv (Attention.head (lin x0 x3 x4) n h) (Attention.head (lin x1 x5 x6) n h) s))) t := by
  rw [val_main_v29_apply, val_main_cst_2_apply]
  have ek : ∀ k : Fin 2048, idx_main_v29 (ix3 n h s) k = ix4 n h s k := fun k => funext fun a => Fin.ext (by
    match a with | ⟨0, _⟩ => rfl | ⟨1, _⟩ => rfl | ⟨2, _⟩ => rfl | ⟨3, _⟩ => rfl)
  simp only [ek, weights, Ideal.ofBits_def]

/-- The normalised weights: every weight divided by the total of its row. -/
theorem quotient (n : Fin 4) (h : Fin 16) (s t : Fin 2048) :
    val_main_v32 (F := Ideal) x0 x1 x3 x4 x5 x6 (ix4 n h s t)
      = Ideal.div
          (Attention.weight (Attention.scoreDiv (Attention.head (lin x0 x3 x4) n h) (Attention.head (lin x1 x5 x6) n h) s)
            (max Attention.negInf
              (Attention.rowMax (Attention.scoreDiv (Attention.head (lin x0 x3 x4) n h) (Attention.head (lin x1 x5 x6) n h) s))) t)
          (Attention.zeroWord + ∑ t' : Fin 2048,
            Attention.weight (Attention.scoreDiv (Attention.head (lin x0 x3 x4) n h) (Attention.head (lin x1 x5 x6) n h) s)
              (max Attention.negInf
                (Attention.rowMax (Attention.scoreDiv (Attention.head (lin x0 x3 x4) n h) (Attention.head (lin x1 x5 x6) n h) s))) t') := by
  rw [val_main_v32_apply, val_main_v31_apply, val_main_v30_apply]
  have eb : idx_main_v30 (idx_main_v31 (ix4 n h s t)) = ix3 n h s := funext fun a => Fin.ext (by
    match a with | ⟨0, _⟩ => rfl | ⟨1, _⟩ => rfl | ⟨2, _⟩ => rfl)
  rw [eb, total, weights]
  rfl

/-- The attention of one head: the value rows summed under the normalised weights. -/
theorem attn (n : Fin 4) (h : Fin 16) (s : Fin 2048) (j : Fin 64) :
    val_main_v33 (F := Ideal) x0 x1 x2 x3 x4 x5 x6 x7 x8 (ix4 n h s j)
      = Attention.attnDivideThenSum (Attention.head (lin x0 x3 x4) n h) (Attention.head (lin x1 x5 x6) n h)
          (Attention.head (lin x2 x7 x8) n h) s j := by
  rw [val_main_v33_apply]
  have el : ∀ k : Fin 2048, lidx_main_v33 (ix4 n h s j) k = ix4 n h s k := fun k => funext fun a => Fin.ext (by
    match a with | ⟨0, _⟩ => rfl | ⟨1, _⟩ => rfl | ⟨2, _⟩ => rfl | ⟨3, _⟩ => rfl)
  have er : ∀ k : Fin 2048, ridx_main_v33 (ix4 n h s j) k = ix4 n h k j := fun k => funext fun a => Fin.ext (by
    match a with | ⟨0, _⟩ => rfl | ⟨1, _⟩ => rfl | ⟨2, _⟩ => rfl | ⟨3, _⟩ => rfl)
  simp only [el, er, quotient, head_v]
  rfl

/-! ## The heads side by side again, and the output linear layer -/

/-- The merged heads: column `d` of row `(n, s)` is coordinate `d % 64` of head `d / 64`. -/
theorem merged (n : Fin 4) (s : Fin 2048) (d : Fin 1024) :
    val_main_v35 (F := Ideal) x0 x1 x2 x3 x4 x5 x6 x7 x8 (ix3 n s d)
      = Attention.merge (fun n h => Attention.attnDivideThenSum (Attention.head (lin x0 x3 x4) n h)
          (Attention.head (lin x1 x5 x6) n h) (Attention.head (lin x2 x7 x8) n h)) n s d := by
  rw [val_main_v35_apply, val_main_v34_apply, merge_pos, attn]
  rfl

/-- The result: the output linear layer of the merged heads. -/
theorem result (n : Fin 4) (s : Fin 2048) (e : Fin 1024) :
    val_main_v39 (F := Ideal) x0 x1 x2 x3 x4 x5 x6 x7 x8 x9 x10 (ix3 n s e)
      = Attention.mhaDivideThenSum (arr x0) (arr x1) (arr x2) (mat x3) (vec x4) (mat x5) (vec x6) (mat x7) (vec x8)
          (mat x9) (vec x10) n s e := by
  rw [val_main_v39_apply, val_main_v36_apply, val_main_v38_apply, val_main_v37_apply]
  have el : ∀ k : Fin 1024, lidx_main_v36 (ix3 n s e) k = ix3 n s k := fun k => funext fun a => Fin.ext (by
    match a with | ⟨0, _⟩ => rfl | ⟨1, _⟩ => rfl | ⟨2, _⟩ => rfl)
  have er : ∀ k : Fin 1024, ridx_main_v36 (ix3 n s e) k = ix2 e k := fun k => funext fun a => Fin.ext (by
    match a with | ⟨0, _⟩ => rfl | ⟨1, _⟩ => rfl)
  have eb : idx_main_v37 (idx_main_v38 (ix3 n s e)) = ix1 e := funext fun a => Fin.ext (by
    match a with | ⟨0, _⟩ => rfl)
  simp only [el, er, eb, merged, Ideal.addf_def]
  rfl

end Stages

/-- The reference's result at `(n, s, e)` is multi-head attention, second spelling, of the inputs read by coordinates. -/
theorem val_main_v39_eq_mha (x0 x1 x2 : (⟨S4x2048x1024, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal))
    (x7 : (⟨S1024x1024, .f32⟩ : BufTy).Contents (Elt Ideal)) (x8 : (⟨S1024, .f32⟩ : BufTy).Contents (Elt Ideal))
    (x9 : (⟨S1024x1024, .f32⟩ : BufTy).Contents (Elt Ideal)) (x10 : (⟨S1024, .f32⟩ : BufTy).Contents (Elt Ideal))
    (n : Fin 4) (s : Fin 2048) (e : Fin 1024) :
    Cert.ReferenceIdeal.Read.val_main_v39 (F := Ideal) x0 x1 x2 x3 x4 x5 x6 x7 x8 x9 x10 (ix3 n s e)
      = Cert.Attention.mhaDivideThenSum (fun n s d => x0 (ix3 n s d)) (fun n s d => x1 (ix3 n s d)) (fun n s d => x2 (ix3 n s d))
          (fun e d => x3 (ix2 e d)) (fun e => x4 (ix1 e)) (fun e d => x5 (ix2 e d)) (fun e => x6 (ix1 e))
          (fun e d => x7 (ix2 e d)) (fun e => x8 (ix1 e)) (fun e d => x9 (ix2 e d)) (fun e => x10 (ix1 e)) n s e :=
  result x0 x1 x2 x3 x4 x5 x6 x7 x8 x9 x10 n s e

/-- The same at an arbitrary index, read through its three coordinates. -/
theorem val_main_v39_eq_mha_at (x0 x1 x2 : (⟨S4x2048x1024, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal))
    (x7 : (⟨S1024x1024, .f32⟩ : BufTy).Contents (Elt Ideal)) (x8 : (⟨S1024, .f32⟩ : BufTy).Contents (Elt Ideal))
    (x9 : (⟨S1024x1024, .f32⟩ : BufTy).Contents (Elt Ideal)) (x10 : (⟨S1024, .f32⟩ : BufTy).Contents (Elt Ideal))
    (i : S4x2048x1024.Idx) :
    Cert.ReferenceIdeal.Read.val_main_v39 (F := Ideal) x0 x1 x2 x3 x4 x5 x6 x7 x8 x9 x10 i
      = Cert.Attention.mhaDivideThenSum (fun n s d => x0 (ix3 n s d)) (fun n s d => x1 (ix3 n s d)) (fun n s d => x2 (ix3 n s d))
          (fun e d => x3 (ix2 e d)) (fun e => x4 (ix1 e)) (fun e d => x5 (ix2 e d)) (fun e => x6 (ix1 e))
          (fun e d => x7 (ix2 e d)) (fun e => x8 (ix1 e)) (fun e d => x9 (ix2 e d)) (fun e => x10 (ix1 e)) (i 0) (i 1) (i 2) :=
  (congrArg (Cert.ReferenceIdeal.Read.val_main_v39 (F := Ideal) x0 x1 x2 x3 x4 x5 x6 x7 x8 x9 x10) (eq_ix3 i)).trans
    (val_main_v39_eq_mha x0 x1 x2 x3 x4 x5 x6 x7 x8 x9 x10 (i 0) (i 1) (i 2))

end Cert.ReferenceIdeal.RefValue

end
-- ==== Proof.lean ====
/-
  The certificate of a multi-head attention kernel against its reference (batch 4, 2048 positions, width 1024 in
  16 heads of 64), at the ideal instance: floats are extended reals and every operation is exact.

  The kernel is five regions: three linear layers project the flattened query, key and value rows; one
  attention region per (batch, head) pair computes, for each query row, the scores against all key rows scaled by
  1/8, their maximum, the exponentials of the shifted scores, the sum of the weighted value rows and that sum
  divided by the total weight; a last linear layer projects the merged heads.  The reference projects with
  einsums, divides the scores by sqrt 64, normalizes the weights with a softmax (each weight divided by the total
  weight) and only then sums the value rows.

  Both results are multi-head attention of the same arguments in two spellings (Attention.lean).  The spellings
  agree because sqrt 64 = 8 and a quotient by 8 is the product with 1/8 on every extended real, and because a
  sum divided by a positive REAL total weight is the sum of the quotients; the total weight is a positive real
  when the scores are real, which the finiteness of the query-side and key-side inputs gives (AttentionLaw.lean,
  FiniteInputs.lean).  The kernel's side is read off its run region by region (KernelRun, LinearRegions,
  AttentionRegion, Layout, KernelValue, over the bodies' arithmetic in KernelPayload); the reference's side off
  its run, one operation at a time (ReferenceValue).  The frames of the two kernels are their runs with the
  result forgotten, the reference's frame its run likewise; the idealization rewrote nothing.
-/
import proofs.«161808_j84293028151875_2_alg».proof.Defs
import proofs.«161808_j84293028151875_2_alg».proof.Proof.Gen.Kernel
import proofs.«161808_j84293028151875_2_alg».proof.Proof.Gen.Kernel.Skeleton
import proofs.«161808_j84293028151875_2_alg».proof.Proof.Gen.Kernel.Launch
import proofs.«161808_j84293028151875_2_alg».proof.Proof.Gen.Kernel.Points
import proofs.«161808_j84293028151875_2_alg».proof.Proof.Gen.Kernel.Frame
import proofs.«161808_j84293028151875_2_alg».proof.Proof.Gen.KernelIdeal
import proofs.«161808_j84293028151875_2_alg».proof.Proof.Gen.KernelIdeal.Skeleton
import proofs.«161808_j84293028151875_2_alg».proof.Proof.Gen.KernelIdeal.Launch
import proofs.«161808_j84293028151875_2_alg».proof.Proof.Gen.KernelIdeal.Points
import proofs.«161808_j84293028151875_2_alg».proof.Proof.Gen.KernelIdeal.Frame
import proofs.«161808_j84293028151875_2_alg».proof.Proof.Gen.ReferenceIdeal
import proofs.«161808_j84293028151875_2_alg».proof.Proof.Gen.Pre_finite_inputs
import proofs.«161808_j84293028151875_2_alg».proof.Proof.Gen.ReferenceIdeal.Run
import proofs.«161808_j84293028151875_2_alg».proof.Proof.Gen.ReferenceIdeal.Read
import proofs.«161808_j84293028151875_2_alg».proof.Proof.Attention
import proofs.«161808_j84293028151875_2_alg».proof.Proof.AttentionLaw
import proofs.«161808_j84293028151875_2_alg».proof.Proof.FiniteInputs
import proofs.«161808_j84293028151875_2_alg».proof.Proof.KernelRun
import proofs.«161808_j84293028151875_2_alg».proof.Proof.KernelValue
import proofs.«161808_j84293028151875_2_alg».proof.Proof.ReferenceValue
import Idealize.ShloMosaic.Adequacy
import Idealize.ShloMosaic.Init

set_option maxRecDepth 16384

noncomputable section

namespace Cert.Proof

open Idealize.ShloMosaic Idealize.ShloMosaic.ValueIdx Idealize.SL.Sem

section Claims

variable [hKernel : Cert.Kernel.Facts] [hKernelIdeal : Cert.KernelIdeal.Facts] [hReferenceIdeal : Cert.ReferenceIdeal.Facts]
  [hPre_finite_inputs : Cert.Pre_finite_inputs.Facts]

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- The two idealized programs end with equal results: the kernel's is the sum-then-divide spelling of multi-head
    attention of its arguments, the reference's the divide-then-sum spelling of the same arguments, and the spellings
    agree on finite query-side and key-side inputs. -/
theorem algebraic : Cert.algebraic_KernelIdeal_ReferenceIdeal := by
  intro m ρ m' ρ' hpre hagree
  refine ⟨fun c => Cert.KernelIdeal.Whole.result m ρ c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq]
  obtain ⟨a0, a1, a2, a3, a4, a5, a6, a7, a8, a9, a10⟩ := hagree c
  rw [a0, a1, a2, a3, a4, a5, a6, a7, a8, a9, a10]
  funext i
  obtain ⟨n, s, e, rfl⟩ : ∃ (n : Fin 4) (s : Fin 2048) (e : Fin 1024), i = ix3 n s e := ⟨i 0, i 1, i 2, eq_ix3 i⟩
  refine (Cert.ReferenceIdeal.RefValue.val_main_v39_eq_mha _ _ _ _ _ _ _ _ _ _ _ n s e).trans ?_
  refine Eq.trans ?_ (Cert.KernelIdeal.Boundary.result_apply m ρ c n s e).symm
  exact (congrFun (congrFun (congrFun (Cert.Attention.mha_eq _ _ _ _ _ _ _ _ _ _ _
    (fun n s d => Cert.FiniteInputs.real_arg0 m hpre c (ix3 n s d)) (fun e d => Cert.FiniteInputs.real_arg3 m hpre c (ix2 e d)) (fun e => Cert.FiniteInputs.real_arg4 m hpre c (ix1 e))
    (fun n s d => Cert.FiniteInputs.real_arg1 m hpre c (ix3 n s d)) (fun e d => Cert.FiniteInputs.real_arg5 m hpre c (ix2 e d)) (fun e => Cert.FiniteInputs.real_arg6 m hpre c (ix1 e))) n) s) e).symm

end Claims

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
